-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x128 .f32) (main_arg3 : FVec F S128 .f32) (main_arg4 : FVec F S128x40 .f32) (main_arg5 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S2000x256 : Shape := ⟨2, ![2000, 256]⟩
abbrev S2000x128 : Shape := ⟨2, ![2000, 128]⟩
abbrev S1700000x128 : Shape := ⟨2, ![1700000, 128]⟩
abbrev S1x128 : Shape := ⟨2, ![1, 128]⟩
abbrev S100000x40 : Shape := ⟨2, ![100000, 40]⟩
abbrev S2000x40 : Shape := ⟨2, ![2000, 40]⟩
abbrev S1700000x40 : Shape := ⟨2, ![1700000, 40]⟩
abbrev S1x40 : Shape := ⟨2, ![1, 40]⟩
abbrev S2000 : Shape := ⟨1, ![2000]⟩
abbrev S2000x1 : Shape := ⟨2, ![2000, 1]⟩

abbrev nBuf : Space → Nat
  | .hbm => 84
  | .vmem => 20
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x40, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x40, .f32⟩
  | .hbm, ⟨75, _⟩ => ⟨S1700000x1, .f32⟩
  | .hbm, ⟨76, _⟩ => ⟨S1700000x40, .f32⟩
  | .hbm, ⟨77, _⟩ => ⟨S1700000x40, .f32⟩
  | .hbm, ⟨78, _⟩ => ⟨S_, .f32⟩
  | .hbm, ⟨79, _⟩ => ⟨S100000x40, .f32⟩
  | .hbm, ⟨80, _⟩ => ⟨S1700000x1, .i32⟩
  | .hbm, ⟨81, _⟩ => ⟨S100000x40, .f32⟩
  | .hbm, ⟨82, _⟩ => ⟨S1x40, .f32⟩
  | .hbm, ⟨83, _⟩ => ⟨S100000x40, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x40, .f32⟩
  | .local _ .vmem, ⟨13, _⟩ => ⟨S2000x40, .f32⟩
  | .local _ .vmem, ⟨14, _⟩ => ⟨S2000x40, .f32⟩
  | .local _ .vmem, ⟨15, _⟩ => ⟨S2000x40, .f32⟩
  | .local _ .vmem, ⟨16, _⟩ => ⟨S2000x40, .f32⟩
  | .local _ .vmem, ⟨17, _⟩ => ⟨S1x40, .f32⟩
  | .local _ .vmem, ⟨18, _⟩ => ⟨S2000x40, .f32⟩
  | .local _ .vmem, ⟨19, _⟩ => ⟨S2000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x40_S128x40_0_0 : ∀ a, (![0, 0] : Fin 2 → Nat) a + S128x40.size a ≤ S128x40.size a
  h_S128x40 : 0 < S128x40.numel
  inb_S2000x40_S2000x40_0_0 : ∀ a, (![0, 0] : Fin 2 → Nat) a + S2000x40.size a ≤ S2000x40.size a
  h_S2000x40 : 0 < S2000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S40_S1x40 : S40.ShapeCasts S1x40
  shapeCasts_S2000x40_S2000x40 : S2000x40.ShapeCasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x256_S256x128_S2000x128_1_0_0_1_n_n_wf : DotDims.WF S2000x256 S256x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x40_S2000x40_1_0_0_1_n_n_wf : DotDims.WF S2000x128 S128x40 S2000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x40.size a ≤ S100000x40.size a
  hwx2_2 : ∀ i : grid2.Coords, EltTy.bits .f32 = 32 ∨ (Rect.block (s := S100000x40) S2000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x40.size a ≤ S100000x40.size a
  hwx3_0 : ∀ i : grid3.Coords, EltTy.bits .f32 = 32 ∨ (Rect.block (s := S100000x40) S2000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x40.size a ≤ S100000x40.size a
  hwx3_2 : ∀ i : grid3.Coords, EltTy.bits .f32 = 32 ∨ (Rect.block (s := S100000x40) S2000x40.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x128 : Shape := ⟨2, ![100000, 128]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 137
  | .vmem => 0
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128x40, .f32⟩
  | 5 => ⟨S40, .f32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S100000x128, .f32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x128, .f32⟩
  | 56 => ⟨S1700000x1, .f32⟩
  | 57 => ⟨S1700000x128, .f32⟩
  | 58 => ⟨S1700000x128, .f32⟩
  | 59 => ⟨S_, .f32⟩
  | 60 => ⟨S100000x128, .f32⟩
  | 61 => ⟨S1700000x1, .i32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x40, .f32⟩
  | 70 => ⟨S_, .f32⟩
  | 71 => ⟨S1700000, .f32⟩
  | 72 => ⟨S_, .f32⟩
  | 73 => ⟨S100000, .f32⟩
  | 74 => ⟨S1700000x1, .i32⟩
  | 75 => ⟨S100000, .f32⟩
  | 76 => ⟨S_, .f32⟩
  | 77 => ⟨S100000, .f32⟩
  | 78 => ⟨S100000, .i1⟩
  | 79 => ⟨S100000, .f32⟩
  | 80 => ⟨S_, .f32⟩
  | 81 => ⟨S_, .f32⟩
  | 82 => ⟨S100000, .f32⟩
  | 83 => ⟨S100000, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000, .f32⟩
  | 102 => ⟨S1700000, .f32⟩
  | 103 => ⟨S_, .i32⟩
  | 104 => ⟨S1700000, .i32⟩
  | 105 => ⟨S1700000, .i1⟩
  | 106 => ⟨S_, .i32⟩
  | 107 => ⟨S1700000, .i32⟩
  | 108 => ⟨S1700000, .i32⟩
  | 109 => ⟨S1700000, .i32⟩
  | 110 => ⟨S1700000x1, .i32⟩
  | 111 => ⟨S1700000x40, .f32⟩
  | 112 => ⟨S1700000x1, .f32⟩
  | 113 => ⟨S1700000x40, .f32⟩
  | 114 => ⟨S1700000x40, .f32⟩
  | 115 => ⟨S_, .f32⟩
  | 116 => ⟨S100000x40, .f32⟩
  | 117 => ⟨S1700000x1, .i32⟩
  | 118 => ⟨S100000x40, .f32⟩
  | 119 => ⟨S1x40, .f32⟩
  | 120 => ⟨S100000x40, .f32⟩
  | 121 => ⟨S100000x40, .f32⟩
  | 122 => ⟨S_, .f32⟩
  | 123 => ⟨S100000, .f32⟩
  | 124 => ⟨S_, .f32⟩
  | 125 => ⟨S100000, .f32⟩
  | 126 => ⟨S100000, .f32⟩
  | 127 => ⟨S100000x1, .f32⟩
  | _ => ⟨S100000x256, .f32⟩

abbrev hbmTy0_1 (i : Nat) : BufTy := match i % 128 with
  | 0 => ⟨S100000x40, .f32⟩
  | 1 => ⟨S100000x40, .f32⟩
  | 2 => ⟨S100000x40, .f32⟩
  | 3 => ⟨S_, .f32⟩
  | 4 => ⟨S100000, .f32⟩
  | 5 => ⟨S100000x1, .f32⟩
  | 6 => ⟨S100000x1, .f32⟩
  | 7 => ⟨S100000x40, .f32⟩
  | 8 => ⟨S100000x40, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_call3_cst : Ref sig .tc := ⟨.hbm, 122, rfl⟩
abbrev main_call3_v0 : Ref sig .tc := ⟨.hbm, 123, rfl⟩
abbrev main_call3_cst_0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_call3_v5 : Ref sig .tc := ⟨.hbm, 129, rfl⟩
abbrev main_call3_v6 : Ref sig .tc := ⟨.hbm, 130, rfl⟩
abbrev main_call3_cst_1 : Ref sig .tc := ⟨.hbm, 131, rfl⟩
abbrev main_call3_v7 : Ref sig .tc := ⟨.hbm, 132, rfl⟩
abbrev main_call3_v8 : Ref sig .tc := ⟨.hbm, 133, rfl⟩
abbrev main_call3_v9 : Ref sig .tc := ⟨.hbm, 134, rfl⟩
abbrev main_call3_v10 : Ref sig .tc := ⟨.hbm, 135, rfl⟩
abbrev main_v88 : Ref sig .tc := ⟨.hbm, 136, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.ResultRun.lean ====
/-
  The idealized kernel program's run with its RESULT read: every weakly fair execution of the whole program (four
  kernel regions among stretches of host operations) terminates, nothing faulting, and the result array ends at the
  contents the last region leaves it with (the last boundary of the run's fold through the program), the argument
  arrays as launched. It is the frame's own launch over the same segments; only the reading of the final state asks,
  besides the six arguments, for the result buffer.
-/
import proofs.«109758_j36799279792943_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the last boundary's contents, the arguments unchanged. -/
theorem run : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.ResultRun

end
-- ==== Proof.Aggregation.lean ====
/-
  The aggregation step of a graph convolution as ONE function of four arrays, for the two feature widths of this
  network: given node features h (100000 rows), the edge sources src and targets dst (1700000 edges, signed words) and
  an edge weight per edge, gather row src e of h for every edge e (a negative source wraps by 100000, as the host's
  indexing does), scale it by the edge's weight, and add it into row dst e of a zero array. Both programs apply this
  same host text; it is carried as one opaque function and never opened: only what goes INTO it is compared.
-/
import proofs.«109758_j36799279792943_1_alg».proof.ReferenceIdeal
import proofs.«109758_j36799279792943_1_alg».proof.Proof.Gen.ReferenceIdeal
import Idealize.ShloMosaic.PureOps.Ideal

noncomputable section

namespace Cert.ReferenceIdeal.Aggregation

open Cert.ReferenceIdeal Cert.ReferenceIdeal.Gen Idealize.ShloMosaic Idealize.ShloMosaic.TcCoe

/-- The edge sources with a negative word wrapped by the number of nodes, as a one-column index array. -/
def wrapped (src : (⟨S1700000, .i32⟩ : BufTy).Contents (Elt Ideal)) : (⟨S1700000x1, .i32⟩ : BufTy).Contents (Elt Ideal) :=
  broadcastInDim S1700000x1 ![0] bcast_S1700000_S1700000x1_0
    (select (cmpi .slt src (broadcastInDim S1700000 ![] bcast_S_S1700000 (constantI S_ 32 0#32)))
      (addi src (broadcastInDim S1700000 ![] bcast_S_S1700000 (constantI S_ 32 100000#32))) src)

/-- Width 128: rows of h gathered along the edges, weighted, scatter-added at the targets. -/
def aggregate128 (h : (⟨S100000x128, .f32⟩ : BufTy).Contents (Elt Ideal)) (src dst : (⟨S1700000, .i32⟩ : BufTy).Contents (Elt Ideal))
    (w : (⟨S1700000, .f32⟩ : BufTy).Contents (Elt Ideal)) : (⟨S100000x128, .f32⟩ : BufTy).Contents (Elt Ideal) :=
  Host.scatterAdd scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 dst)
    (mulf (Host.gather gather_S100000x128_S1700000x1_S1700000x128_1_0_n_n_0_1_1128 h (wrapped src))
      (broadcastInDim S1700000x128 ![0, 1] bcast_S1700000x1_S1700000x128_0_1
        (broadcastInDim S1700000x1 ![0] bcast_S1700000_S1700000x1_0 w)))

/-- Width 40: the same aggregation of a 100000 x 40 array. -/
def aggregate40 (h : (⟨S100000x40, .f32⟩ : BufTy).Contents (Elt Ideal)) (src dst : (⟨S1700000, .i32⟩ : BufTy).Contents (Elt Ideal))
    (w : (⟨S1700000, .f32⟩ : BufTy).Contents (Elt Ideal)) : (⟨S100000x40, .f32⟩ : BufTy).Contents (Elt Ideal) :=
  Host.scatterAdd scatter_S100000x40_S1700000x1_S1700000x40_1_0_0_1
    (broadcastInDim S100000x40 ![] bcast_S_S100000x40 (constant (F := Ideal) S_ .f32 0x00000000#32))
    (broadcastInDim S1700000x1 ![0] bcast_S1700000_S1700000x1_0 dst)
    (mulf (Host.gather gather_S100000x40_S1700000x1_S1700000x40_1_0_n_n_0_1_140 h (wrapped src))
      (broadcastInDim S1700000x40 ![0, 1] bcast_S1700000x1_S1700000x40_0_1
        (broadcastInDim S1700000x1 ![0] bcast_S1700000_S1700000x1_0 w)))

end Cert.ReferenceIdeal.Aggregation

end
-- ==== Proof.LibHostRun.lean ====
/-
  Two general facts about a straight line of host operations.
  The contents after a concatenation of two lines are the contents after the second line, from the contents after the first.
  A two-operand concatenate is a function of its two operands' contents only: equal contents, operand by operand, give
  equal results (a congruence rule for the operand list, which is a list of shape-and-array pairs).
-/
import Idealize.ShloMosaic.Lib.StableHlo.Run

noncomputable section

namespace Idealize.ShloMosaic.StableHlo

open Idealize.ShloMosaic

/-- Running `l₁ ++ l₂` is running `l₁`, then `l₂`. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A two-operand concatenate with equal operands' contents. -/
theorem concat2_congr {α : Type} {t s₁ s₂ : Shape} (ax : Fin t.rank) (a a' : s₁.Idx → α) (b b' : s₂.Idx → α) (h)
    (ha : a = a') (hb : b = b') :
    concatenate t ax [⟨s₁, a⟩, ⟨s₂, b⟩] h = concatenate t ax [⟨s₁, a'⟩, ⟨s₂, b'⟩] h := by subst ha hb; rfl

end Idealize.ShloMosaic.StableHlo

end
-- ==== Proof.HostStretches.lean ====
/-
  The kernel program's stretches of host operations, each read as a function of the contents it starts from (a
  general valuation W). Before the first region: the edge sources (the first row of the edge list followed by every
  node once, the self loops), the edge targets (the second row, likewise) and the edge weights (the product of the
  inverse square roots of the target-degree at the two ends) are the reference's own stage functions of the edge
  list. Between regions: the aggregation of the previous region's result (the shared opaque function) and the bias
  as a one-row array. No stretch writes an argument array, the sources, the targets or the weights.
-/
import proofs.«109758_j36799279792943_1_alg».proof.Proof.Gen.KernelIdeal.Frame
import proofs.«109758_j36799279792943_1_alg».proof.Proof.RefRead
import proofs.«109758_j36799279792943_1_alg».proof.Proof.Aggregation
import proofs.«109758_j36799279792943_1_alg».proof.Proof.LibHostRun
import Idealize.ShloMosaic.Lib.StableHlo.Run

set_option maxRecDepth 16384

noncomputable section

namespace Cert.KernelIdeal.HostStretches

open Cert.KernelIdeal Cert.KernelIdeal.Gen
open Idealize.ShloMosaic Idealize.ShloMosaic.TcCoe Idealize.ShloMosaic.StableHlo Idealize.SL.Sem
open Cert.ReferenceIdeal.ReadP (val_main_v3 val_main_v6 val_main_v30 val_main_v15)
open Cert.ReferenceIdeal.Aggregation (aggregate128 aggregate40)

/-! ## Before the first region -/

section Split

variable {F : FTy → Type} [FloatOps F]

/-- The first seven operations of the first stretch: the node numbers, the two rows of the edge list, and each row
    followed by the node numbers (the edge sources and the edge targets). -/
abbrev edgeOps : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- Its other eleven operations: the target-degree of every node, whether it is positive, and its inverse square root. -/
abbrev degreeOps : List (HloOp τ sig (Elt F)) :=
  [ StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.unary main_v10 main_v13 (Host.rsqrt : (⟨S100000, .f32⟩ : BufTy).Contents (Elt F) → (⟨S100000, .f32⟩ : BufTy).Contents (Elt F)),
    StableHlo.nullary main_cst_2 (constant S_ .f32 0x00000000#32) ]

/-- The first stretch is the one line followed by the other. -/
theorem hostOps0_split : (hostOps0 : List (HloOp τ sig (Elt F))) = edgeOps ++ degreeOps := rfl

end Split

variable (W : Valuation τ sig (Elt Ideal))

/-- After the first seven operations the edge sources are the reference's: row 0 of the edge list, then the node numbers. -/
theorem edge_sources : after edgeOps W (Proc.devRef .tc main_v3) = val_main_v3 (F := Ideal) (W (Proc.devRef .tc main_arg1)) := by
  after_results_simp
  unfold val_main_v3
  refine concat2_congr _ _ _ _ _ _ ?_ ?_
  · after_results_simp <;> rfl
  · after_results_simp <;> rfl

/-- After them the edge targets are the reference's: row 1 of the edge list, then the node numbers. -/
theorem edge_targets : after edgeOps W (Proc.devRef .tc main_v6) = val_main_v6 (F := Ideal) (W (Proc.devRef .tc main_arg1)) := by
  after_results_simp
  unfold val_main_v6
  refine concat2_congr _ _ _ _ _ _ ?_ ?_
  · after_results_simp <;> rfl
  · after_results_simp <;> rfl

/-! ### The edge weights, stage by stage -/

/-- The target-degree of every node: one added at each edge's target, into zeros. -/
def degree (dst : (⟨S1700000, .i32⟩ : BufTy).Contents (Elt Ideal)) : (⟨S100000, .f32⟩ : BufTy).Contents (Elt Ideal) :=
  Host.scatterAdd scatter_S100000_S1700000x1_S1700000_n_0_0_1
    (broadcastInDim S100000 ![] bcast_S_S100000 (constant (F := Ideal) S_ .f32 0x00000000#32))
    (broadcastInDim S1700000x1 ![0] bcast_S1700000_S1700000x1_0 dst)
    (broadcastInDim S1700000 ![] bcast_S_S1700000 (constant (F := Ideal) S_ .f32 0x3F800000#32))

/-- The scale of every node from the edge targets: the inverse square root of the target-degree where that is
    positive, zero elsewhere. -/
def nodeScale (dst : (⟨S1700000, .i32⟩ : BufTy).Contents (Elt Ideal)) : (⟨S100000, .f32⟩ : BufTy).Contents (Elt Ideal) :=
  select
    (cmpf .ogt (degree dst) (broadcastInDim S100000 ![] bcast_S_S100000 (constant (F := Ideal) S_ .f32 0x00000000#32)))
    (Host.rsqrt (F := Ideal) (φ := .f32) (degree dst))
    (broadcastInDim S100000 ![] bcast_S_S100000 (constant (F := Ideal) S_ .f32 0x00000000#32))

/-- An index array with a negative word wrapped by the number of nodes, as one column. -/
def wrapped (ix : (⟨S1700000, .i32⟩ : BufTy).Contents (Elt Ideal)) : (⟨S1700000x1, .i32⟩ : BufTy).Contents (Elt Ideal) :=
  broadcastInDim S1700000x1 ![0] bcast_S1700000_S1700000x1_0
    (select (cmpi .slt ix (broadcastInDim S1700000 ![] bcast_S_S1700000 (constantI S_ 32 0#32)))
      (addi ix (broadcastInDim S1700000 ![] bcast_S_S1700000 (constantI S_ 32 100000#32))) ix)

/-- The weight of every edge: the node scale at its source times the node scale at its target. -/
def edgeWeight (scale : (⟨S100000, .f32⟩ : BufTy).Contents (Elt Ideal)) (src dst : (⟨S1700000, .i32⟩ : BufTy).Contents (Elt Ideal)) :
    (⟨S1700000, .f32⟩ : BufTy).Contents (Elt Ideal) :=
  mulf (F := Ideal) (φ := .f32)
    (Host.gather gather_S100000_S1700000x1_S1700000_n_0_n_n_0_1_1 scale (wrapped src))
    (Host.gather gather_S100000_S1700000x1_S1700000_n_0_n_n_0_1_1 scale (wrapped dst))

/-- The second half of the first stretch leaves: where the target-degree of the edge targets it finds is positive, -/
theorem degree_positive : after degreeOps W (Proc.devRef .tc main_v12)
    = cmpf .ogt (degree (W (Proc.devRef .tc main_v6))) (broadcastInDim S100000 ![] bcast_S_S100000 (constant (F := Ideal) S_ .f32 0x00000000#32)) := by
  after_results_simp
  rfl
/-- its inverse square root, -/
theorem degree_rsqrt : after degreeOps W (Proc.devRef .tc main_v13) = Host.rsqrt (F := Ideal) (φ := .f32) (degree (W (Proc.devRef .tc main_v6))) := by
  after_results_simp
  rfl
/-- and a zero. -/
theorem degree_zero : after degreeOps W (Proc.devRef .tc main_cst_2) = constant (F := Ideal) S_ .f32 0x00000000#32 := by
  after_results_simp <;> rfl
/-- It writes neither the edge sources nor the edge targets. -/
theorem degree_keeps_sources : after degreeOps W (Proc.devRef .tc main_v3) = W (Proc.devRef .tc main_v3) := by
  after_results_simp <;> rfl
theorem degree_keeps_targets : after degreeOps W (Proc.devRef .tc main_v6) = W (Proc.devRef .tc main_v6) := by
  after_results_simp <;> rfl

/-- The second stretch selects, node by node, between the second and the third array it finds by the first, the third
    being the one word broadcast. -/
theorem where_select : after hostOps0_1 W (Proc.devRef .tc main_v14)
    = select (W (Proc.devRef .tc main_v12)) (W (Proc.devRef .tc main_v13))
        (broadcastInDim S100000 ![] bcast_S_S100000 (W (Proc.devRef .tc main_cst_2))) := by
  after_results_simp
  rfl
/-- It writes neither the edge sources nor the edge targets. -/
theorem where_keeps_sources : after hostOps0_1 W (Proc.devRef .tc main_v3) = W (Proc.devRef .tc main_v3) := by
  after_results_simp <;> rfl
theorem where_keeps_targets : after hostOps0_1 W (Proc.devRef .tc main_v6) = W (Proc.devRef .tc main_v6) := by
  after_results_simp <;> rfl

/-- The third stretch leaves the edge weights of the node scale, the sources and the targets it finds. -/
theorem edge_weight : after hostOps0_2 W (Proc.devRef .tc main_v29)
    = edgeWeight (W (Proc.devRef .tc main_v14)) (W (Proc.devRef .tc main_v3)) (W (Proc.devRef .tc main_v6)) := by
  after_results_simp
  rfl

/-- Of the reference's edge targets the node scale is the reference's. -/
theorem nodeScale_ref (x1 : (⟨Cert.ReferenceIdeal.S2x1600000, .i32⟩ : BufTy).Contents (Elt Ideal)) :
    nodeScale (val_main_v6 (F := Ideal) x1) = val_main_v15 (F := Ideal) x1 := rfl

/-- Of the reference's node scale, sources and targets the edge weights are the reference's. -/
theorem edgeWeight_ref (x1 : (⟨Cert.ReferenceIdeal.S2x1600000, .i32⟩ : BufTy).Contents (Elt Ideal)) :
    edgeWeight (val_main_v15 (F := Ideal) x1) (val_main_v3 (F := Ideal) x1) (val_main_v6 (F := Ideal) x1)
      = val_main_v30 (F := Ideal) x1 := rfl

/-- The contents after the three stretches that precede the first region. -/
abbrev entry0 : Valuation τ sig (Elt Ideal) := after hostOps0_2 (after hostOps0_1 (after hostOps0 W))

set_option maxHeartbeats 4000000 in
theorem sources : entry0 W (Proc.devRef .tc main_v3) = val_main_v3 (F := Ideal) (W (Proc.devRef .tc main_arg1)) := by
  have h3 := edge_sources W
  unfold entry0
  rw [hostOps0_split, after_append]
  generalize after edgeOps W = W' at h3 ⊢
  after_results_simp
  exact h3

set_option maxHeartbeats 4000000 in
theorem targets : entry0 W (Proc.devRef .tc main_v6) = val_main_v6 (F := Ideal) (W (Proc.devRef .tc main_arg1)) := by
  have h6 := edge_targets W
  unfold entry0
  rw [hostOps0_split, after_append]
  generalize after edgeOps W = W' at h6 ⊢
  after_results_simp
  exact h6

set_option maxHeartbeats 4000000 in
theorem weights : entry0 W (Proc.devRef .tc main_v29) = val_main_v30 (F := Ideal) (W (Proc.devRef .tc main_arg1)) := by
  have h3 := edge_sources W
  have h6 := edge_targets W
  unfold entry0
  rw [hostOps0_split, after_append]
  generalize after edgeOps W = W1 at h3 h6 ⊢
  have d12 := degree_positive W1
  have d13 := degree_rsqrt W1
  have d0 := degree_zero W1
  have d3 := degree_keeps_sources W1
  have d6 := degree_keeps_targets W1
  generalize after degreeOps W1 = W2 at d12 d13 d0 d3 d6 ⊢
  have w14 := where_select W2
  have w3 := where_keeps_sources W2
  have w6 := where_keeps_targets W2
  generalize after hostOps0_1 W2 = W3 at w14 w3 w6 ⊢
  refine (edge_weight W3).trans ?_
  rw [w14, w3, w6, d12, d13, d0, d3, d6, h3, h6]
  exact (congrArg (fun s => edgeWeight s _ _) (nodeScale_ref _)).trans (edgeWeight_ref _)

set_option maxHeartbeats 4000000 in
theorem entry0_arg0 : entry0 W (Proc.devRef .tc main_arg0) = W (Proc.devRef .tc main_arg0) := by
  unfold entry0; after_results_simp <;> rfl
set_option maxHeartbeats 4000000 in
theorem entry0_arg2 : entry0 W (Proc.devRef .tc main_arg2) = W (Proc.devRef .tc main_arg2) := by
  unfold entry0; after_results_simp <;> rfl
set_option maxHeartbeats 4000000 in
theorem entry0_arg3 : entry0 W (Proc.devRef .tc main_arg3) = W (Proc.devRef .tc main_arg3) := by
  unfold entry0; after_results_simp <;> rfl
set_option maxHeartbeats 4000000 in
theorem entry0_arg4 : entry0 W (Proc.devRef .tc main_arg4) = W (Proc.devRef .tc main_arg4) := by
  unfold entry0; after_results_simp <;> rfl
set_option maxHeartbeats 4000000 in
theorem entry0_arg5 : entry0 W (Proc.devRef .tc main_arg5) = W (Proc.devRef .tc main_arg5) := by
  unfold entry0; after_results_simp <;> rfl

/-! ## Between the first and the second region -/

theorem first_aggregate : after hostOps1 W (Proc.devRef .tc main_v43)
    = aggregate128 (W (Proc.devRef .tc main_v30)) (W (Proc.devRef .tc main_v3)) (W (Proc.devRef .tc main_v6)) (W (Proc.devRef .tc main_v29)) := by
  after_results_simp
  rfl

theorem first_bias : after hostOps1 W (Proc.devRef .tc main_v44)
    = shapeCast S1x128 (W (Proc.devRef .tc main_arg3)) shapeCasts_S128_S1x128 := by
  after_results_simp <;> rfl

theorem stretch1_v3 : after hostOps1 W (Proc.devRef .tc main_v3) = W (Proc.devRef .tc main_v3) := by after_results_simp <;> rfl
theorem stretch1_v6 : after hostOps1 W (Proc.devRef .tc main_v6) = W (Proc.devRef .tc main_v6) := by after_results_simp <;> rfl
theorem stretch1_v29 : after hostOps1 W (Proc.devRef .tc main_v29) = W (Proc.devRef .tc main_v29) := by after_results_simp <;> rfl
theorem stretch1_arg4 : after hostOps1 W (Proc.devRef .tc main_arg4) = W (Proc.devRef .tc main_arg4) := by after_results_simp <;> rfl
theorem stretch1_arg5 : after hostOps1 W (Proc.devRef .tc main_arg5) = W (Proc.devRef .tc main_arg5) := by after_results_simp <;> rfl

/-! ## Between the third and the fourth region -/

theorem second_aggregate : after hostOps3 W (Proc.devRef .tc main_v59)
    = aggregate40 (W (Proc.devRef .tc main_v46)) (W (Proc.devRef .tc main_v3)) (W (Proc.devRef .tc main_v6)) (W (Proc.devRef .tc main_v29)) := by
  after_results_simp
  rfl

theorem second_bias : after hostOps3 W (Proc.devRef .tc main_v60)
    = shapeCast S1x40 (W (Proc.devRef .tc main_arg5)) shapeCasts_S40_S1x40 := by
  after_results_simp <;> rfl

end Cert.KernelIdeal.HostStretches

end
-- ==== Proof.Stages.lean ====
/-
  The dense stages of a two-layer graph convolution, each as ONE function of whole arrays, read index by index over
  the extended reals. A matrix is a function of a two-coordinate index. Four stages:
    * the product of an M x K by a K x N matrix: entry (r, c) is the sum over k of a (r, k) * b (k, c);
    * adding a one-row matrix to every row;
    * the positive part, entry by entry (the maximum with the zero word's value);
    * the row-wise log-softmax in its shifted form: with m_r the maximum of row r taken from the word of minus
      infinity, entry (r, c) is (z (r, c) - m_r) - log (sum over k of exp (z (r, k) - m_r)).
  Both programs compute these stages; the gather / scatter-add aggregation between them is the same host text on both
  sides and is never opened.
-/
import Idealize.ShloMosaic.PureOps.Ideal
import Idealize.ShloMosaic.Lib.ValueIdx

noncomputable section

open scoped BigOperators

namespace Cert.GraphConv

open Idealize.ShloMosaic Idealize.ShloMosaic.ValueIdx

/-- An M x N matrix of extended reals. -/
abbrev Mat (M N : ℕ) : Type := (⟨2, ![M, N]⟩ : Shape).Idx → EReal

/-- The row of an index. -/
abbrev rowOf {M N : ℕ} (i : (⟨2, ![M, N]⟩ : Shape).Idx) : Fin M := ⟨(i 0).val, (i 0).isLt⟩
/-- The column of an index. -/
abbrev colOf {M N : ℕ} (i : (⟨2, ![M, N]⟩ : Shape).Idx) : Fin N := ⟨(i 1).val, (i 1).isLt⟩

theorem eq_rowcol {M N : ℕ} (i : (⟨2, ![M, N]⟩ : Shape).Idx) : i = ix2 (rowOf i) (colOf i) := by
  funext a; apply Fin.ext
  match a with
  | ⟨0, _⟩ => rfl
  | ⟨1, _⟩ => rfl

@[simp] theorem rowOf_ix2 {M N : ℕ} (r : Fin M) (c : Fin N) : rowOf (ix2 r c) = r := rfl
@[simp] theorem colOf_ix2 {M N : ℕ} (r : Fin M) (c : Fin N) : colOf (ix2 r c) = c := rfl

/-- The matrix product. -/
def matProd {M K N : ℕ} (a : Mat M K) (b : Mat K N) : Mat M N :=
  fun i => ∑ k : Fin K, a (ix2 (rowOf i) k) * b (ix2 k (colOf i))

/-- A one-row matrix added to every row. -/
def addRow {M N : ℕ} (a : Mat M N) (b : Mat 1 N) : Mat M N :=
  fun i => a i + b (ix2 (0 : Fin 1) (colOf i))

/-- The positive part, entry by entry. -/
def nonnegPart {M N : ℕ} (z : Mat M N) : Mat M N :=
  fun i => max (z i) (Ideal.ofBits .f32 0x00000000#32)

/-- The maximum of row r, taken from the value of the word of minus infinity. -/
def rowMax {M N : ℕ} (z : Mat M N) (r : Fin M) : EReal :=
  (Finset.univ : Finset (Fin N)).fold max (Ideal.ofBits .f32 0xFF800000#32) (fun k => z (ix2 r k))

/-- The row-wise log-softmax, shifted by the row maximum. -/
def logSoftmax {M N : ℕ} (z : Mat M N) : Mat M N :=
  fun i => (z i - rowMax z (rowOf i)) - Ideal.log (∑ k : Fin N, Ideal.exp (z (ix2 (rowOf i) k) - rowMax z (rowOf i)))

theorem matProd_ix2 {M K N : ℕ} (a : Mat M K) (b : Mat K N) (r : Fin M) (c : Fin N) :
    matProd a b (ix2 r c) = ∑ k : Fin K, a (ix2 r k) * b (ix2 k c) := rfl

theorem addRow_ix2 {M N : ℕ} (a : Mat M N) (b : Mat 1 N) (r : Fin M) (c : Fin N) :
    addRow a b (ix2 r c) = a (ix2 r c) + b (ix2 (0 : Fin 1) c) := rfl

theorem nonnegPart_ix2 {M N : ℕ} (z : Mat M N) (r : Fin M) (c : Fin N) :
    nonnegPart z (ix2 r c) = max (z (ix2 r c)) (Ideal.ofBits .f32 0x00000000#32) := rfl

theorem logSoftmax_ix2 {M N : ℕ} (z : Mat M N) (r : Fin M) (c : Fin N) :
    logSoftmax z (ix2 r c) = (z (ix2 r c) - rowMax z r) - Ideal.log (∑ k : Fin N, Ideal.exp (z (ix2 r k) - rowMax z r)) := rfl

end Cert.GraphConv

end
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.FirstProduct.lean ====
/-
  The first kernel region multiplies a 100000 x 256 array by a 256 x 128 matrix, 2000 rows at a grid point. Its 50
  blocks are the row blocks of ONE whole-array function of the two arrays the region finds: entry (r, c) of the
  result is the sum over k of a (r, k) * b (k, c). Block t of the first operand and of the result is rows
  2000 t .. 2000 t + 1999; the matrix is fetched whole at every point; the 50 row blocks cover the array.
  At the extended reals the rounding of both operands to a narrower format is the identity, and the matrix unit's
  product into a zero accumulator is the finite sum over the inner position.
-/
import proofs.«109758_j36799279792943_1_alg».proof.Proof.Gen.KernelIdeal.Frame
import proofs.«109758_j36799279792943_1_alg».proof.Proof.Stages
import proofs.«109758_j36799279792943_1_alg».proof.Proof.LibDotIx2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.FirstProduct

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The region's dimension numbers are those of a plain 2000 x 256 by 256 x 128 product: the left operand's second
    axis is contracted with the right operand's first, and nothing is batched. -/
theorem plain_dims : PlainDot (M := 2000) (K := 256) (N := 128) dot_S2000x256_S256x128_S2000x128_1_0_0_1_n_n where
  rank := rfl
  size := rfl
  l0 := fun j q => by
    unfold DotDims.lhsIdx
    rw [dif_neg (show ¬(0 : Fin S2000x256.rank) ∈ dot_S2000x256_S256x128_S2000x128_1_0_0_1_n_n.lhsBatch by decide),
      dif_pos (show (0 : Fin S2000x256.rank) ∈ dot_S2000x256_S256x128_S2000x128_1_0_0_1_n_n.lhsNonContracting by decide)]
    rfl
  l1 := fun j q => dot_S2000x256_S256x128_S2000x128_1_0_0_1_n_n.lhsIdx_val_of_single rfl j q
  r0 := fun j q => dot_S2000x256_S256x128_S2000x128_1_0_0_1_n_n.rhsIdx_val_of_single rfl j q
  r1 := fun j q => by
    unfold DotDims.rhsIdx
    rw [dif_neg (show ¬(1 : Fin S256x128.rank) ∈ dot_S2000x256_S256x128_S2000x128_1_0_0_1_n_n.rhsBatch by decide),
      dif_pos (show (1 : Fin S256x128.rank) ∈ dot_S2000x256_S256x128_S2000x128_1_0_0_1_n_n.rhsNonContracting by decide)]
    rfl

/-- What the body stores, at row p and column q of the block: the sum over the inner position k of the first
    block's entry (p, k) times the matrix's entry (k, q). -/
theorem payload_at (x0 : Vec Ideal S2000x256 .f32) (x1 : Vec Ideal S256x128 .f32) (p : Fin 2000) (q : Fin 128) :
    k0_pay1 (F := Ideal) x0 x1 (ix2 p q) = ∑ k : Fin 256, (x0 (ix2 p k) : EReal) * (x1 (ix2 k q) : EReal) := by
  unfold k0_pay1
  exact matmul_zero_ix2_any plain_dims none (truncf .bf16 x0 bitsLt_bf16_f32) (truncf .bf16 x1 bitsLt_bf16_f32) p q

/-- The printed index maps over the grid: the row block of the first operand and of the result is the point's own,
    their column block and both of the matrix's are block 0. -/
theorem index_facts : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = 0 ∧ win0_1.index t (1 : Fin 2) = 0 ∧ win0_2.index t (0 : Fin 2) ≤ 49 :=
  (by decide +kernel : ∀ t : Fin grid0.N, _)

/-- Every row block is some point's. -/
theorem index_onto : ∀ q0 : Fin 50, ∃ t : Fin cfg0.N, win0_2.index t = ![q0.val, 0] :=
  (by decide +kernel : ∀ q0 : Fin 50, ∃ t : Fin grid0.N, win0_2.index t = ![q0.val, 0])

/-- For any two matrices, the sum over the inner position of the first one's entry at window 0's block position
    (p, k) times the second one's at window 1's block position (k, q) is their product's entry at the result block's
    position (p, q): the first window's rows are the result's, and the second window is the whole matrix. -/
theorem block_entry (A : Mat 100000 256) (B : Mat 256 128) (t : Fin cfg0.N) (p : Fin 2000) (q : Fin 128) :
    ∑ k : Fin 256, A (((cfg0.win 0).blk t).view.emb (ix2 p k)) * B (((cfg0.win 1).blk t).view.emb (ix2 k q))
      = matProd A B (((cfg0.win 2).blk t).view.emb (ix2 p q)) := by
  obtain ⟨e0, e1, e2, e3, e4, e5⟩ := index_facts t
  show _ = ∑ k : Fin 256, A (ix2 (rowOf (((cfg0.win 2).blk t).view.emb (ix2 p q))) k)
        * B (ix2 k (colOf (((cfg0.win 2).blk t).view.emb (ix2 p q))))
  refine Finset.sum_congr rfl fun k _ => ?_
  have h0 : ((cfg0.win 0).blk t).view.emb (ix2 p k) = ix2 (rowOf (((cfg0.win 2).blk t).view.emb (ix2 p q))) k := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 256 + 1 * k.val = k.val; omega
  have h1 : ((cfg0.win 1).blk t).view.emb (ix2 k q) = ix2 k (colOf (((cfg0.win 2).blk t).view.emb (ix2 p q))) := by
    funext a; apply Fin.ext
    match a with
    | ⟨0, _⟩ => show win0_1.index t (0 : Fin 2) * 256 + 1 * k.val = k.val; omega
    | ⟨1, _⟩ => show win0_1.index t (1 : Fin 2) * 128 + 1 * q.val = win0_2.index t (1 : Fin 2) * 128 + 1 * q.val; omega
  rw [h0, h1]

/-- What point t writes back is block t of the whole-array function. -/
theorem flushed_eq (c : Dev nD) (t : Fin cfg0.N) :
    (dat0 V c).flushed 2 t = ((cfg0.win 2).blk t).view.read (Elt Ideal) (matProd (V c main_arg0) (V c main_arg2)) := by
  show (cfg0.win 2).cut (grid0.coords t) ((dat0 V c).after 2 t) = _
  rw [after0_2]
  unfold out0_2
  rw [View.canon_unit_zero zero_offsets]
  simp only [View.ld_unit_zero (S := S2000x256) zero_offsets, View.ld_unit_zero (S := S256x128) zero_offsets]
  funext j
  obtain ⟨p, q, rfl⟩ : ∃ (p : Fin 2000) (q : Fin 128), j = ix2 p q := ⟨j 0, j 1, eq_ix2 j⟩
  refine (payload_at (iblk0 V c 0 t) (iblk0 V c 1 t) p q).trans ?_
  exact block_entry (V c main_arg0) (V c main_arg2) t p q

/-- An index of the array is in point t's block iff each coordinate is in the block's range on its axis. -/
theorem mem_block (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v30).slice (win0_2.rect t)).set ↔ _
  rw [View.set_slice_whole, Rect.mem_set_unit]
  exact Iff.rfl

/-- The 50 row blocks cover the array: row r lies in block r / 2000. -/
theorem covered (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := index_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The result array after the region: the product of the first operand by the matrix, whatever contents the region
    was entered from. -/
theorem result (c : Dev nD) :
    (dat0 V c).arrAt 2 cfg0.N = matProd (V c main_arg0) (V c main_arg2) :=
  (dat0 V c).arrAt_eq_of_cover 2 _ (fun t _ => flushed_eq V c t) (covered)

end Cert.KernelIdeal.FirstProduct

end
-- ==== Proof.BiasNonnegPart.lean ====
/-
  The second kernel region adds a one-row bias to a 100000 x 128 array and takes the positive part, 2000 rows at a
  grid point. Its 50 blocks are the row blocks of ONE whole-array function of the two arrays the region finds: entry
  (r, c) of the result is max (a (r, c) + b (0, c), 0). Block t of the first operand and of the result is rows
  2000 t .. 2000 t + 1999; the bias is fetched whole at every point; the 50 row blocks cover the array.
-/
import proofs.«109758_j36799279792943_1_alg».proof.Proof.Gen.KernelIdeal.Frame
import proofs.«109758_j36799279792943_1_alg».proof.Proof.Stages
import Idealize.ShloMosaic.Lib.Pipeline.Value
import Idealize.ShloMosaic.Lib.ValueIdx
import Idealize.ShloMosaic.Lib.ValueLayout

set_option maxRecDepth 16384

noncomputable section

namespace Cert.KernelIdeal.BiasNonnegPart

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- What the body stores, at row p and column q of the block: the block's entry plus the bias at q, against zero. -/
theorem payload_at (x0 : Vec Ideal S2000x128 .f32) (x1 : Vec Ideal S1x128 .f32) (p : Fin 2000) (q : Fin 128) :
    k1_pay1 (F := Ideal) x0 x1 (ix2 p q) = max (x0 (ix2 p q) + x1 (ix2 (0 : Fin 1) q)) (Ideal.ofBits .f32 0x00000000#32) := by
  unfold k1_pay1
  rw [shapeCast_self, shapeCast_self]
  show max (x0 (ix2 p q) + broadcastTo S2000x128 x1 broadcasts_S1x128_S2000x128 (ix2 p q)) _ = _
  rw [broadcastTo_1b_ab_apply]
  rfl

/-- The printed index maps over the grid: the row block of the first operand and of the result is the point's own,
    their column block and both of the bias's are block 0. -/
theorem index_facts : ∀ t : Fin cfg1.N, win1_0.index t (0 : Fin 2) = win1_2.index t (0 : Fin 2)
    ∧ win1_0.index t (1 : Fin 2) = 0 ∧ win1_2.index t (1 : Fin 2) = 0
    ∧ win1_1.index t (0 : Fin 2) = 0 ∧ win1_1.index t (1 : Fin 2) = 0 ∧ win1_2.index t (0 : Fin 2) ≤ 49 :=
  (by decide +kernel : ∀ t : Fin grid1.N, _)

/-- Every row block is some point's. -/
theorem index_onto : ∀ q0 : Fin 50, ∃ t : Fin cfg1.N, win1_2.index t = ![q0.val, 0] :=
  (by decide +kernel : ∀ q0 : Fin 50, ∃ t : Fin grid1.N, win1_2.index t = ![q0.val, 0])

/-- What point t writes back is block t of the whole-array function. -/
theorem flushed_eq (c : Dev nD) (t : Fin cfg1.N) :
    (dat1 V c).flushed 2 t = ((cfg1.win 2).blk t).view.read (Elt Ideal) (nonnegPart (addRow (V c main_v43) (V c main_v44))) := by
  show (cfg1.win 2).cut (grid1.coords t) ((dat1 V c).after 2 t) = _
  rw [after1_2]
  unfold out1_2
  rw [View.canon_unit_zero zero_offsets]
  simp only [View.ld_unit_zero (S := S2000x128) zero_offsets, View.ld_unit_zero (S := S1x128) zero_offsets]
  obtain ⟨e0, e1, e2, e3, e4, e5⟩ := index_facts t
  funext j
  obtain ⟨p, q, rfl⟩ : ∃ (p : Fin 2000) (q : Fin 128), j = ix2 p q := ⟨j 0, j 1, eq_ix2 j⟩
  refine (payload_at (iblk1 V c 0 t) (iblk1 V c 1 t) p q).trans ?_
  have h0 : ((cfg1.win 0).blk t).view.emb (ix2 p q) = ((cfg1.win 2).blk t).view.emb (ix2 p q) := by
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 128 + 1 * q.val = win1_2.index t (1 : Fin 2) * 128 + 1 * q.val; omega
  have h1 : ((cfg1.win 1).blk t).view.emb (ix2 (0 : Fin 1) q) = ix2 (0 : Fin 1) (colOf (((cfg1.win 2).blk t).view.emb (ix2 p q))) := by
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  have hA : iblk1 V c 0 t (ix2 p q) = V c main_v43 (((cfg1.win 2).blk t).view.emb (ix2 p q)) := by
    show V c main_v43 (((cfg1.win 0).blk t).view.emb (ix2 p q)) = _
    rw [h0]
  have hB : iblk1 V c 1 t (ix2 (0 : Fin 1) q) = V c main_v44 (ix2 (0 : Fin 1) (colOf (((cfg1.win 2).blk t).view.emb (ix2 p q)))) := by
    show V c main_v44 (((cfg1.win 1).blk t).view.emb (ix2 (0 : Fin 1) q)) = _
    rw [h1]
  rw [hA, hB]
  rfl

/-- An index of the array is in point t's block iff each coordinate is in the block's range on its axis. -/
theorem mem_block (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v45).slice (win1_2.rect t)).set ↔ _
  rw [View.set_slice_whole, Rect.mem_set_unit]
  exact Iff.rfl

/-- The 50 row blocks cover the array: row r lies in block r / 2000. -/
theorem covered (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := index_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- The result array after the region: the positive part of the first operand plus the bias row, whatever contents
    the region was entered from. -/
theorem result (c : Dev nD) :
    (dat1 V c).arrAt 2 cfg1.N = nonnegPart (addRow (V c main_v43) (V c main_v44)) :=
  (dat1 V c).arrAt_eq_of_cover 2 _ (fun t _ => flushed_eq V c t) (covered)

end Cert.KernelIdeal.BiasNonnegPart

end
-- ==== Proof.SecondProduct.lean ====
/-
  The third kernel region multiplies a 100000 x 128 array by a 128 x 40 matrix, 2000 rows at a grid point. Its 50
  blocks are the row blocks of ONE whole-array function of the two arrays the region finds: entry (r, c) of the
  result is the sum over k of a (r, k) * b (k, c). Block t of the first operand and of the result is rows
  2000 t .. 2000 t + 1999; the matrix is fetched whole at every point; the 50 row blocks cover the array.
  The body first recasts its 2000 x 128 block to its own shape, which changes nothing. At the extended reals the
  rounding of both operands to a narrower format is the identity, and the matrix unit's product into a zero
  accumulator is the finite sum over the inner position.
-/
import proofs.«109758_j36799279792943_1_alg».proof.Proof.Gen.KernelIdeal.Frame
import proofs.«109758_j36799279792943_1_alg».proof.Proof.Stages
import proofs.«109758_j36799279792943_1_alg».proof.Proof.LibDotIx2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.SecondProduct

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The region's dimension numbers are those of a plain 2000 x 128 by 128 x 40 product: the left operand's second
    axis is contracted with the right operand's first, and nothing is batched. -/
theorem plain_dims : PlainDot (M := 2000) (K := 128) (N := 40) dot_S2000x128_S128x40_S2000x40_1_0_0_1_n_n where
  rank := rfl
  size := rfl
  l0 := fun j q => by
    unfold DotDims.lhsIdx
    rw [dif_neg (show ¬(0 : Fin S2000x128.rank) ∈ dot_S2000x128_S128x40_S2000x40_1_0_0_1_n_n.lhsBatch by decide),
      dif_pos (show (0 : Fin S2000x128.rank) ∈ dot_S2000x128_S128x40_S2000x40_1_0_0_1_n_n.lhsNonContracting by decide)]
    rfl
  l1 := fun j q => dot_S2000x128_S128x40_S2000x40_1_0_0_1_n_n.lhsIdx_val_of_single rfl j q
  r0 := fun j q => dot_S2000x128_S128x40_S2000x40_1_0_0_1_n_n.rhsIdx_val_of_single rfl j q
  r1 := fun j q => by
    unfold DotDims.rhsIdx
    rw [dif_neg (show ¬(1 : Fin S128x40.rank) ∈ dot_S2000x128_S128x40_S2000x40_1_0_0_1_n_n.rhsBatch by decide),
      dif_pos (show (1 : Fin S128x40.rank) ∈ dot_S2000x128_S128x40_S2000x40_1_0_0_1_n_n.rhsNonContracting by decide)]
    rfl

/-- What the body stores, at row p and column q of the block: the sum over the inner position k of the first
    block's entry (p, k) times the matrix's entry (k, q). -/
theorem payload_at (x0 : Vec Ideal S2000x128 .f32) (x1 : Vec Ideal S128x40 .f32) (p : Fin 2000) (q : Fin 40) :
    k2_pay1 (F := Ideal) x0 x1 (ix2 p q) = ∑ k : Fin 128, (x0 (ix2 p k) : EReal) * (x1 (ix2 k q) : EReal) := by
  unfold k2_pay1
  rw [shapeCast_self]
  exact matmul_zero_ix2_any plain_dims none (truncf .bf16 x0 bitsLt_bf16_f32) (truncf .bf16 x1 bitsLt_bf16_f32) p q

/-- The printed index maps over the grid: the row block of the first operand and of the result is the point's own,
    their column block and both of the matrix's are block 0. -/
theorem index_facts : ∀ t : Fin cfg2.N, win2_0.index t (0 : Fin 2) = win2_2.index t (0 : Fin 2)
    ∧ win2_0.index t (1 : Fin 2) = 0 ∧ win2_2.index t (1 : Fin 2) = 0
    ∧ win2_1.index t (0 : Fin 2) = 0 ∧ win2_1.index t (1 : Fin 2) = 0 ∧ win2_2.index t (0 : Fin 2) ≤ 49 :=
  (by decide +kernel : ∀ t : Fin grid2.N, _)

/-- Every row block is some point's. -/
theorem index_onto : ∀ q0 : Fin 50, ∃ t : Fin cfg2.N, win2_2.index t = ![q0.val, 0] :=
  (by decide +kernel : ∀ q0 : Fin 50, ∃ t : Fin grid2.N, win2_2.index t = ![q0.val, 0])

/-- For any two matrices, the sum over the inner position of the first one's entry at window 0's block position
    (p, k) times the second one's at window 1's block position (k, q) is their product's entry at the result block's
    position (p, q): the first window's rows are the result's, and the second window is the whole matrix. -/
theorem block_entry (A : Mat 100000 128) (B : Mat 128 40) (t : Fin cfg2.N) (p : Fin 2000) (q : Fin 40) :
    ∑ k : Fin 128, A (((cfg2.win 0).blk t).view.emb (ix2 p k)) * B (((cfg2.win 1).blk t).view.emb (ix2 k q))
      = matProd A B (((cfg2.win 2).blk t).view.emb (ix2 p q)) := by
  obtain ⟨e0, e1, e2, e3, e4, e5⟩ := index_facts t
  show _ = ∑ k : Fin 128, A (ix2 (rowOf (((cfg2.win 2).blk t).view.emb (ix2 p q))) k)
        * B (ix2 k (colOf (((cfg2.win 2).blk t).view.emb (ix2 p q))))
  refine Finset.sum_congr rfl fun k _ => ?_
  have h0 : ((cfg2.win 0).blk t).view.emb (ix2 p k) = ix2 (rowOf (((cfg2.win 2).blk t).view.emb (ix2 p q))) k := by
    funext a; apply Fin.ext
    match a with
    | ⟨0, _⟩ => show win2_0.index t (0 : Fin 2) * 2000 + 1 * p.val = win2_2.index t (0 : Fin 2) * 2000 + 1 * p.val; omega
    | ⟨1, _⟩ => show win2_0.index t (1 : Fin 2) * 128 + 1 * k.val = k.val; omega
  have h1 : ((cfg2.win 1).blk t).view.emb (ix2 k q) = ix2 k (colOf (((cfg2.win 2).blk t).view.emb (ix2 p q))) := by
    funext a; apply Fin.ext
    match a with
    | ⟨0, _⟩ => show win2_1.index t (0 : Fin 2) * 128 + 1 * k.val = k.val; omega
    | ⟨1, _⟩ => show win2_1.index t (1 : Fin 2) * 40 + 1 * q.val = win2_2.index t (1 : Fin 2) * 40 + 1 * q.val; omega
  rw [h0, h1]

/-- What point t writes back is block t of the whole-array function. -/
theorem flushed_eq (c : Dev nD) (t : Fin cfg2.N) :
    (dat2 V c).flushed 2 t = ((cfg2.win 2).blk t).view.read (Elt Ideal) (matProd (V c main_v45) (V c main_arg4)) := by
  show (cfg2.win 2).cut (grid2.coords t) ((dat2 V c).after 2 t) = _
  rw [after2_2]
  unfold out2_2
  rw [View.canon_unit_zero zero_offsets]
  simp only [View.ld_unit_zero (S := S2000x128) zero_offsets, View.ld_unit_zero (S := S128x40) zero_offsets]
  funext j
  obtain ⟨p, q, rfl⟩ : ∃ (p : Fin 2000) (q : Fin 40), j = ix2 p q := ⟨j 0, j 1, eq_ix2 j⟩
  refine (payload_at (iblk2 V c 0 t) (iblk2 V c 1 t) p q).trans ?_
  exact block_entry (V c main_v45) (V c main_arg4) t p q

/-- An index of the array is in point t's block iff each coordinate is in the block's range on its axis. -/
theorem mem_block (t : Fin cfg2.N) (i : S100000x40.Idx) :
    i ∈ ((cfg2.win 2).blk t).view.set ↔ ∀ a : Fin 2, win2_2.index t a * S2000x40.size a ≤ (i a).val ∧ (i a).val < win2_2.index t a * S2000x40.size a + S2000x40.size a := by
  show i ∈ ((View.whole main_v46).slice (win2_2.rect t)).set ↔ _
  rw [View.set_slice_whole, Rect.mem_set_unit]
  exact Iff.rfl

/-- The 50 row blocks cover the array: row r lies in block r / 2000. -/
theorem covered (i : S100000x40.Idx) : ∃ t : Fin cfg2.N, (cfg2.win 2).flush t = true ∧ i ∈ ((cfg2.win 2).blk t).view.set := by
  have hi0 : (i 0).val < 100000 := (i 0).isLt
  have hi1 : (i 1).val < 40 := (i 1).isLt
  obtain ⟨t, ht⟩ := index_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 40 ≤ (i 1).val ∧ (i 1).val < win2_2.index t (1 : Fin 2) * 40 + 40; omega

/-- The result array after the region: the product of the first operand by the matrix, whatever contents the region
    was entered from. -/
theorem result (c : Dev nD) :
    (dat2 V c).arrAt 2 cfg2.N = matProd (V c main_v45) (V c main_arg4) :=
  (dat2 V c).arrAt_eq_of_cover 2 _ (fun t _ => flushed_eq V c t) (covered)

end Cert.KernelIdeal.SecondProduct

end
-- ==== Proof.LibRowReduce.lean ====
/-
  Reductions of an `a × b` array along its columns, read at a row `p`, at the extended reals: the vector unit's
  multi-reduction with an add or a maximum body and the host's one-operand reduce with a maximum body are, at row `p`,
  the finite sum, respectively the fold of `max` from the starting value, over the `b` entries `(p, k)` of that row.
  The reduced index `p` with a column `k` put back is `(p, k)`.
-/
import Idealize.ShloMosaic.PureOps.Ideal.Laws
import Idealize.ShloMosaic.Lib.ValueIdx

noncomputable section

open scoped BigOperators

namespace Idealize.ShloMosaic.ValueIdx

open Idealize.ShloMosaic

/-- The reduced index `p` of an `a × b` array reduced along its columns, with column `k` put back, is `(p, k)`. -/
theorem lift_cols_ix2 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A multi-reduction with an add body along the columns, at row `p`: the sum of the row. -/
theorem rowSum_ix1 {φ : FTy} {a b : ℕ} (src : FVec Ideal (⟨2, ![a, b]⟩ : Shape) φ) (acc : BitVec φ.bits)
    (h : (⟨2, ![a, b]⟩ : Shape).Reduces [1] (⟨1, ![a]⟩ : Shape)) (hφ : FKind.Formats φ)
    (hacc : acc = FKind.add.neutral φ hφ) (p : Fin a) :
    multiReduction .add [1] (⟨1, ![a]⟩ : Shape) src acc h hφ hacc (ix1 p) = ∑ k : Fin b, src (ix2 p k) :=
  (Ideal.multiReduction_add_single src acc h hφ hacc (ix1 p)).trans
    (Finset.sum_congr rfl fun k _ => congrArg src (lift_cols_ix2 h p k))

/-- A multi-reduction with a maximum body along the columns, at row `p`: the fold of `max` over the row, from the
    accumulator's value. -/
theorem rowMax_ix1 {φ : FTy} {a b : ℕ} (src : FVec Ideal (⟨2, ![a, b]⟩ : Shape) φ) (acc : BitVec φ.bits)
    (h : (⟨2, ![a, b]⟩ : Shape).Reduces [1] (⟨1, ![a]⟩ : Shape)) (hφ : FKind.Formats φ)
    (hacc : acc = FKind.maximumf.neutral φ hφ) (p : Fin a) :
    multiReduction .maximumf [1] (⟨1, ![a]⟩ : Shape) src acc h hφ hacc (ix1 p)
      = (Finset.univ : Finset (Fin b)).fold max (FloatOps.ofBits φ acc) (fun k => src (ix2 p k)) :=
  (Ideal.multiReduction_maximumf_single src acc h hφ hacc (ix1 p)).trans
    (congrArg ((Finset.univ : Finset (Fin b)).fold max (FloatOps.ofBits φ acc))
      (funext fun k => congrArg src (lift_cols_ix2 h p k)))

/-- The host's reduce with a maximum body along the columns, at row `p`: the fold of `max` over the row, from the
    initial value's one element. -/
theorem hostRowMax_ix1 {φ : FTy} {a b : ℕ} (x : FVec Ideal (⟨2, ![a, b]⟩ : Shape) φ) {u : Shape} (init : u.Idx → Ideal φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg ((Finset.univ : Finset (Fin b)).fold max (init (Shape.Idx.first hu)))
      (funext fun k => congrArg x (lift_cols_ix2 h p k)))

end Idealize.ShloMosaic.ValueIdx

end
-- ==== Proof.LibColumnLayout.lean ====
/-
  A column kept as a trailing unit axis, read at coordinates. A row reduction of an `a × b` array gives a length-`a`
  vector; "keepdims" stores it as an `a × 1` array and broadcasts it back over the `b` columns. Read at `(p, c)` the
  result is the vector at `p`, whatever the column.
-/
import Idealize.ShloMosaic.Lib.Pipeline.Value
import Idealize.ShloMosaic.Lib.ValueIdx

noncomputable section

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.BiasLogSoftmax.lean ====
/-
  The fourth kernel region adds a one-row bias to a 100000 x 40 array and takes the row-wise log-softmax, 2000 rows at
  a grid point. A row's log-softmax reads that row only, so the 50 blocks are the row blocks of ONE whole-array
  function of the two arrays the region finds: with z (r, c) = a (r, c) + b (0, c) and m_r the maximum of row r of z
  taken from minus infinity, entry (r, c) of the result is (z (r, c) - m_r) - log (sum over k of exp (z (r, k) - m_r)).
  Block t of the first operand and of the result is rows 2000 t .. 2000 t + 1999; the bias is fetched whole at every
  point; the 50 row blocks cover the array.
-/
import proofs.«109758_j36799279792943_1_alg».proof.Proof.Gen.KernelIdeal.Frame
import proofs.«109758_j36799279792943_1_alg».proof.Proof.Stages
import proofs.«109758_j36799279792943_1_alg».proof.Proof.LibRowReduce
import proofs.«109758_j36799279792943_1_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.BiasLogSoftmax

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block with the bias row added, at row p and column k. -/
theorem biased_at (x0 : FVec Ideal S2000x40 .f32) (x1 : FVec Ideal S1x40 .f32) (p : Fin 2000) (k : Fin 40) :
    addf x0 (broadcastTo S2000x40 x1 broadcasts_S1x40_S2000x40) (ix2 p k) = x0 (ix2 p k) + x1 (ix2 (0 : Fin 1) k) := by
  show x0 (ix2 p k) + broadcastTo S2000x40 x1 broadcasts_S1x40_S2000x40 (ix2 p k) = _
  rw [broadcastTo_1b_ab_apply]

/-- A length-2000 vector kept as a 2000 x 1 column and broadcast over the 40 columns reads, at (p, q), the vector at p. -/
theorem column_at (v : FVec Ideal S2000 .f32) (p : Fin 2000) (q : Fin 40) :
    broadcastTo S2000x40 (shapeCast S2000x1 v shapeCasts_S2000_S2000x1) broadcasts_S2000x1_S2000x40 (ix2 p q) = v (ix1 p) :=
  (broadcastTo_a1_ab_apply _ broadcasts_S2000x1_S2000x40 p q).trans (shapeCast_a_a1_apply v shapeCasts_S2000_S2000x1 p 0)

/-- The same with the logarithm taken on the column before it is broadcast. -/
theorem log_column_at (v : FVec Ideal S2000 .f32) (p : Fin 2000) (q : Fin 40) :
    broadcastTo S2000x40 (log (shapeCast S2000x1 v shapeCasts_S2000_S2000x1)) broadcasts_S2000x1_S2000x40 (ix2 p q)
      = Ideal.log (v (ix1 p)) :=
  (broadcastTo_a1_ab_apply _ broadcasts_S2000x1_S2000x40 p q).trans
    (congrArg Ideal.log (shapeCast_a_a1_apply v shapeCasts_S2000_S2000x1 p 0))

/-- A row's log-softmax reads that row only: two matrices that agree on a row of each have the same log-softmax there. -/
theorem logSoftmax_congr_row {M M' N : ℕ} (z : Mat M N) (z' : Mat M' N) (r : Fin M) (r' : Fin M')
    (h : ∀ k : Fin N, z (ix2 r k) = z' (ix2 r' k)) (c : Fin N) :
    logSoftmax z (ix2 r c) = logSoftmax z' (ix2 r' c) := by
  have hf : (fun k : Fin N => z (ix2 r k)) = fun k : Fin N => z' (ix2 r' k) := funext h
  have hm : rowMax z r = rowMax z' r' := by unfold rowMax; rw [hf]
  rw [logSoftmax_ix2, logSoftmax_ix2, hm, h c]
  exact congrArg (fun s => z' (ix2 r' c) - rowMax z' r' - Ideal.log s)
    (Finset.sum_congr rfl fun k _ => by rw [h k])

/-- The last steps of the body, from a 2000 x 40 vector z and a second one, col, that is constantly m along row p:
    z - col, less the logarithm of the row sum of exp (z - col), that sum being a reduction along the columns kept as
    a 2000 x 1 column, its logarithm taken there and then broadcast back. -/
theorem shifted_core (z col : FVec Ideal S2000x40 .f32) (p : Fin 2000) (q : Fin 40) (m : EReal)
    (hcol : ∀ k : Fin 40, col (ix2 p k) = m) :
    subf (subf z col)
      (broadcastTo S2000x40 (log (shapeCast S2000x1
        (multiReduction .add [1] S2000 (exp (subf z col)) 0x00000000#32 reduces_S2000x40_S2000 (.inl rfl) rfl)
        shapeCasts_S2000_S2000x1)) broadcasts_S2000x1_S2000x40)
      (ix2 p q)
      = (z (ix2 p q) - m) - Ideal.log (∑ k : Fin 40, Ideal.exp (z (ix2 p k) - m)) := by
  show (z (ix2 p q) - col (ix2 p q))
      - broadcastTo S2000x40 (log (shapeCast S2000x1
          (multiReduction .add [1] S2000 (exp (subf z col)) 0x00000000#32 reduces_S2000x40_S2000 (.inl rfl) rfl)
          shapeCasts_S2000_S2000x1)) broadcasts_S2000x1_S2000x40 (ix2 p q) = _
  rw [log_column_at, hcol q]
  refine congrArg (fun s => z (ix2 p q) - m - Ideal.log s) ?_
  refine (rowSum_ix1 (exp (subf z col)) 0x00000000#32 reduces_S2000x40_S2000 (.inl rfl) rfl p).trans ?_
  exact Finset.sum_congr rfl fun k _ => by
    show Ideal.exp (z (ix2 p k) - col (ix2 p k)) = _
    rw [hcol k]

/-- The shifted log-softmax as the vector unit computes it from a 2000 x 40 vector z, at row p and column q: the row
    maximum is a reduction along the columns from minus infinity, kept as a 2000 x 1 column and broadcast back. -/
theorem shifted_at (z : FVec Ideal S2000x40 .f32) (p : Fin 2000) (q : Fin 40) :
    subf
      (subf z (broadcastTo S2000x40 (shapeCast S2000x1
        (multiReduction .maximumf [1] S2000 z 0xFF800000#32 reduces_S2000x40_S2000 (.inl rfl) rfl)
        shapeCasts_S2000_S2000x1) broadcasts_S2000x1_S2000x40))
      (broadcastTo S2000x40 (log (shapeCast S2000x1
        (multiReduction .add [1] S2000
          (exp (subf z (broadcastTo S2000x40 (shapeCast S2000x1
            (multiReduction .maximumf [1] S2000 z 0xFF800000#32 reduces_S2000x40_S2000 (.inl rfl) rfl)
            shapeCasts_S2000_S2000x1) broadcasts_S2000x1_S2000x40)))
          0x00000000#32 reduces_S2000x40_S2000 (.inl rfl) rfl)
        shapeCasts_S2000_S2000x1)) broadcasts_S2000x1_S2000x40)
      (ix2 p q)
      = logSoftmax (z : Mat 2000 40) (ix2 p q) :=
  (shifted_core z _ p q (rowMax (z : Mat 2000 40) p) fun k =>
    (column_at _ p k).trans (rowMax_ix1 z 0xFF800000#32 reduces_S2000x40_S2000 (.inl rfl) rfl p)).trans
    (logSoftmax_ix2 (z : Mat 2000 40) p q).symm

/-- What the body stores, at row p and column q of the block: the log-softmax of the block plus the bias row. -/
theorem payload_at (x0 : Vec Ideal S2000x40 .f32) (x1 : Vec Ideal S1x40 .f32) (p : Fin 2000) (q : Fin 40) :
    k3_pay1 (F := Ideal) x0 x1 (ix2 p q) = logSoftmax (addRow (x0 : Mat 2000 40) (x1 : Mat 1 40)) (ix2 p q) := by
  unfold k3_pay1
  rw [shapeCast_self, shapeCast_self]
  refine (shifted_at (addf x0 (broadcastTo S2000x40 x1 broadcasts_S1x40_S2000x40)) p q).trans ?_
  exact logSoftmax_congr_row _ _ p p (fun k => biased_at x0 x1 p k) q

/-- Two bias sums agree at an entry when the summands do. -/
theorem addRow_congr {M M' N : ℕ} (a : Mat M N) (a' : Mat M' N) (b b' : Mat 1 N) (r : Fin M) (r' : Fin M') (k : Fin N)
    (ha : a (ix2 r k) = a' (ix2 r' k)) (hb : b (ix2 (0 : Fin 1) k) = b' (ix2 (0 : Fin 1) k)) :
    addRow a b (ix2 r k) = addRow a' b' (ix2 r' k) := by
  rw [addRow_ix2, addRow_ix2, ha, hb]

/-- The printed index maps over the grid: the row block of the first operand and of the result is the point's own,
    their column block and both of the bias's are block 0. -/
theorem index_facts : ∀ t : Fin cfg3.N, win3_0.index t (0 : Fin 2) = win3_2.index t (0 : Fin 2)
    ∧ win3_0.index t (1 : Fin 2) = 0 ∧ win3_2.index t (1 : Fin 2) = 0
    ∧ win3_1.index t (0 : Fin 2) = 0 ∧ win3_1.index t (1 : Fin 2) = 0 ∧ win3_2.index t (0 : Fin 2) ≤ 49 :=
  (by decide +kernel : ∀ t : Fin grid3.N, _)

/-- Every row block is some point's. -/
theorem index_onto : ∀ q0 : Fin 50, ∃ t : Fin cfg3.N, win3_2.index t = ![q0.val, 0] :=
  (by decide +kernel : ∀ q0 : Fin 50, ∃ t : Fin grid3.N, win3_2.index t = ![q0.val, 0])

/-- What point t writes back is block t of the whole-array function: row p of the block is row 2000 t + p of the
    array, in the first operand and in the result alike, and the log-softmax of a row reads that row only. -/
theorem flushed_eq (c : Dev nD) (t : Fin cfg3.N) :
    (dat3 V c).flushed 2 t = ((cfg3.win 2).blk t).view.read (Elt Ideal) (logSoftmax (addRow (V c main_v59) (V c main_v60))) := by
  show (cfg3.win 2).cut (grid3.coords t) ((dat3 V c).after 2 t) = _
  rw [after3_2]
  unfold out3_2
  rw [View.canon_unit_zero zero_offsets]
  simp only [View.ld_unit_zero (S := S2000x40) zero_offsets, View.ld_unit_zero (S := S1x40) zero_offsets]
  obtain ⟨e0, e1, e2, e3, e4, e5⟩ := index_facts t
  funext j
  obtain ⟨p, q, rfl⟩ : ∃ (p : Fin 2000) (q : Fin 40), j = ix2 p q := ⟨j 0, j 1, eq_ix2 j⟩
  refine (payload_at (iblk3 V c 0 t) (iblk3 V c 1 t) p q).trans ?_
  have hp : p.val < 2000 := p.isLt
  have hrow : win3_2.index t (0 : Fin 2) * 2000 + 1 * p.val < 100000 := by omega
  have he : ((cfg3.win 2).blk t).view.emb (ix2 p q)
      = ix2 (⟨win3_2.index t (0 : Fin 2) * 2000 + 1 * p.val, hrow⟩ : Fin 100000) q := by
    funext a; apply Fin.ext
    match a with
    | ⟨0, _⟩ => show win3_2.index t (0 : Fin 2) * 2000 + 1 * p.val = win3_2.index t (0 : Fin 2) * 2000 + 1 * p.val; rfl
    | ⟨1, _⟩ => show win3_2.index t (1 : Fin 2) * 40 + 1 * q.val = q.val; omega
  show _ = logSoftmax (addRow (V c main_v59 : Mat 100000 40) (V c main_v60 : Mat 1 40)) (((cfg3.win 2).blk t).view.emb (ix2 p q))
  rw [he]
  refine logSoftmax_congr_row _ _ p _ (fun k => ?_) q
  have h0 : ((cfg3.win 0).blk t).view.emb (ix2 p k)
      = ix2 (⟨win3_2.index t (0 : Fin 2) * 2000 + 1 * p.val, hrow⟩ : Fin 100000) k := by
    funext a; apply Fin.ext
    match a with
    | ⟨0, _⟩ => show win3_0.index t (0 : Fin 2) * 2000 + 1 * p.val = win3_2.index t (0 : Fin 2) * 2000 + 1 * p.val; omega
    | ⟨1, _⟩ => show win3_0.index t (1 : Fin 2) * 40 + 1 * k.val = k.val; omega
  have h1 : ((cfg3.win 1).blk t).view.emb (ix2 (0 : Fin 1) k) = ix2 (0 : Fin 1) k := by
    funext a; apply Fin.ext
    match a with
    | ⟨0, _⟩ => show win3_1.index t (0 : Fin 2) * 1 + 1 * 0 = 0; omega
    | ⟨1, _⟩ => show win3_1.index t (1 : Fin 2) * 40 + 1 * k.val = k.val; omega
  have hA : iblk3 V c 0 t (ix2 p k)
      = V c main_v59 (ix2 (⟨win3_2.index t (0 : Fin 2) * 2000 + 1 * p.val, hrow⟩ : Fin 100000) k) := by
    show V c main_v59 (((cfg3.win 0).blk t).view.emb (ix2 p k)) = _
    rw [h0]
  have hB : iblk3 V c 1 t (ix2 (0 : Fin 1) k) = V c main_v60 (ix2 (0 : Fin 1) k) := by
    show V c main_v60 (((cfg3.win 1).blk t).view.emb (ix2 (0 : Fin 1) k)) = _
    rw [h1]
  exact addRow_congr _ _ _ _ p _ k hA hB

/-- An index of the array is in point t's block iff each coordinate is in the block's range on its axis. -/
theorem mem_block (t : Fin cfg3.N) (i : S100000x40.Idx) :
    i ∈ ((cfg3.win 2).blk t).view.set ↔ ∀ a : Fin 2, win3_2.index t a * S2000x40.size a ≤ (i a).val ∧ (i a).val < win3_2.index t a * S2000x40.size a + S2000x40.size a := by
  show i ∈ ((View.whole main_v61).slice (win3_2.rect t)).set ↔ _
  rw [View.set_slice_whole, Rect.mem_set_unit]
  exact Iff.rfl

/-- The 50 row blocks cover the array: row r lies in block r / 2000. -/
theorem covered (i : S100000x40.Idx) : ∃ t : Fin cfg3.N, (cfg3.win 2).flush t = true ∧ i ∈ ((cfg3.win 2).blk t).view.set := by
  have hi0 : (i 0).val < 100000 := (i 0).isLt
  have hi1 : (i 1).val < 40 := (i 1).isLt
  obtain ⟨t, ht⟩ := index_onto ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 40 ≤ (i 1).val ∧ (i 1).val < win3_2.index t (1 : Fin 2) * 40 + 40; omega

/-- The result array after the region: the row-wise log-softmax of the first operand plus the bias row, whatever
    contents the region was entered from. -/
theorem result (c : Dev nD) :
    (dat3 V c).arrAt 2 cfg3.N = logSoftmax (addRow (V c main_v59) (V c main_v60)) :=
  (dat3 V c).arrAt_eq_of_cover 2 _ (fun t _ => flushed_eq V c t) (covered)

end Cert.KernelIdeal.BiasLogSoftmax

end
-- ==== Proof.DenseStages.lean ====
/-
  The reference program's stages, read as the whole-array functions of the dense steps. Its two matrix products are
  the product of matrices; adding the broadcast bias and taking the maximum with zero is the positive part of the
  row-added bias; its log-softmax (row maximum from minus infinity, once more against minus infinity, which changes
  nothing; shifted exponentials summed from the zero word, which adds nothing; the logarithm) is the shifted row-wise
  log-softmax. Its two aggregations are the shared aggregation function of the previous stage, the edge sources,
  targets and weights; the weights it computes a second time for the second layer are the same term as the first.
-/
import proofs.«109758_j36799279792943_1_alg».proof.Proof.RefRead
import proofs.«109758_j36799279792943_1_alg».proof.Proof.Aggregation
import proofs.«109758_j36799279792943_1_alg».proof.Proof.Stages
import proofs.«109758_j36799279792943_1_alg».proof.Proof.LibRowReduce
import Idealize.ShloMosaic.Lib.ValueLayout

set_option maxRecDepth 16384

noncomputable section

open scoped BigOperators

namespace Cert.ReferenceIdeal.DenseStages

open Cert.ReferenceIdeal Cert.ReferenceIdeal.Gen Cert.ReferenceIdeal.ReadP Cert.ReferenceIdeal.Aggregation Cert.GraphConv
open Idealize.ShloMosaic Idealize.ShloMosaic.TcCoe Idealize.ShloMosaic.ValueIdx

/-! ## The two products -/

theorem first_product (x0 : (⟨S100000x256, .f32⟩ : BufTy).Contents (Elt Ideal)) (x2 : (⟨S256x128, .f32⟩ : BufTy).Contents (Elt Ideal)) :
    val_main_v7 (F := Ideal) x0 x2 = matProd x0 x2 := by
  funext i
  obtain ⟨r, c, rfl⟩ : ∃ (r : Fin 100000) (c : Fin 128), i = ix2 r c := ⟨i 0, i 1, eq_ix2 i⟩
  rw [val_main_v7_apply, matProd_ix2]
  refine Finset.sum_congr rfl fun k _ => ?_
  have el : lidx_main_v7 (ix2 r c) k = ix2 r k := funext fun a => Fin.ext (by match a with | ⟨0, _⟩ => rfl | ⟨1, _⟩ => rfl)
  have er : ridx_main_v7 (ix2 r c) k = ix2 k c := funext fun a => Fin.ext (by match a with | ⟨0, _⟩ => rfl | ⟨1, _⟩ => rfl)
  rw [el, er]

theorem second_product (x0 : (⟨S100000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal)) (x4 : (⟨S128x40, .f32⟩ : BufTy).Contents (Elt Ideal)) :
    val_main_v48 (F := Ideal) x0 x1 x2 x3 x4 = matProd (val_main_v47 (F := Ideal) x0 x1 x2 x3) x4 := by
  funext i
  obtain ⟨r, c, rfl⟩ : ∃ (r : Fin 100000) (c : Fin 40), i = ix2 r c := ⟨i 0, i 1, eq_ix2 i⟩
  rw [val_main_v48_apply, matProd_ix2]
  refine Finset.sum_congr rfl fun k _ => ?_
  have el : lidx_main_v48 (ix2 r c) k = ix2 r k := funext fun a => Fin.ext (by match a with | ⟨0, _⟩ => rfl | ⟨1, _⟩ => rfl)
  have er : ridx_main_v48 (ix2 r c) k = ix2 k c := funext fun a => Fin.ext (by match a with | ⟨0, _⟩ => rfl | ⟨1, _⟩ => rfl)
  rw [el, er]

/-! ## The bias rows: a length-n vector as a 1 x n array, by the reference's broadcast or by a cast -/

theorem bias_row_128 (x3 : (⟨S128, .f32⟩ : BufTy).Contents (Elt Ideal)) (h : S128.ShapeCasts S1x128) :
    shapeCast S1x128 x3 h = val_main_v44 (F := Ideal) x3 := by
  funext i
  obtain ⟨u, c, rfl⟩ : ∃ (u : Fin 1) (c : Fin 128), i = ix2 u c := ⟨i 0, i 1, eq_ix2 i⟩
  rw [shapeCast_a_1a_apply, val_main_v44_apply]
  exact congrArg x3 (funext fun a => Fin.ext (by match a with | ⟨0, _⟩ => rfl))

theorem bias_row_40 (x5 : (⟨S40, .f32⟩ : BufTy).Contents (Elt Ideal)) (h : S40.ShapeCasts S1x40) :
    shapeCast S1x40 x5 h = val_main_v85 (F := Ideal) x5 := by
  funext i
  obtain ⟨u, c, rfl⟩ : ∃ (u : Fin 1) (c : Fin 40), i = ix2 u c := ⟨i 0, i 1, eq_ix2 i⟩
  rw [shapeCast_a_1a_apply, val_main_v85_apply]
  exact congrArg x5 (funext fun a => Fin.ext (by match a with | ⟨0, _⟩ => rfl))

/-! ## Bias and positive part -/

theorem bias_nonneg_part (x0 : (⟨S100000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal)) :
    val_main_v47 (F := Ideal) x0 x1 x2 x3 = nonnegPart (addRow (val_main_v43 (F := Ideal) x0 x1 x2) (val_main_v44 (F := Ideal) x3)) := by
  funext i
  obtain ⟨r, c, rfl⟩ : ∃ (r : Fin 100000) (c : Fin 128), i = ix2 r c := ⟨i 0, i 1, eq_ix2 i⟩
  rw [val_main_v47_apply, val_main_v46_apply, val_main_v45_apply, val_main_call1_v0_apply, val_main_call1_cst_apply]
  have e : idx_main_v45 (ix2 r c) = ix2 (0 : Fin 1) c := funext fun a => Fin.ext (by match a with | ⟨0, _⟩ => rfl | ⟨1, _⟩ => rfl)
  rw [e]
  rfl

/-! ## The log-softmax -/

theorem log_softmax (x0 : (⟨S100000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal)) (x4 : (⟨S128x40, .f32⟩ : BufTy).Contents (Elt Ideal)) (x5 : (⟨S40, .f32⟩ : BufTy).Contents (Elt Ideal)) :
    val_main_v88 (F := Ideal) x0 x1 x2 x3 x4 x5 = logSoftmax (addRow (val_main_v84 (F := Ideal) x0 x1 x2 x3 x4) (val_main_v85 (F := Ideal) x5)) := by
  have hz : val_main_v87 (F := Ideal) x0 x1 x2 x3 x4 x5 = addRow (val_main_v84 (F := Ideal) x0 x1 x2 x3 x4) (val_main_v85 (F := Ideal) x5) := by
    funext i
    obtain ⟨r, c, rfl⟩ : ∃ (r : Fin 100000) (c : Fin 40), i = ix2 r c := ⟨i 0, i 1, eq_ix2 i⟩
    rw [val_main_v87_apply, val_main_v86_apply]
    have e : idx_main_v86 (ix2 r c) = ix2 (0 : Fin 1) c := funext fun a => Fin.ext (by match a with | ⟨0, _⟩ => rfl | ⟨1, _⟩ => rfl)
    rw [e]
    rfl
  generalize addRow (val_main_v84 (F := Ideal) x0 x1 x2 x3 x4) (val_main_v85 (F := Ideal) x5) = z at hz ⊢
  -- the row maximum: taking it once more against minus infinity changes nothing
  have hmax : ∀ r : Fin 100000, val_main_call3_v2 (F := Ideal) x0 x1 x2 x3 x4 x5 (ix1 r) = rowMax z r := fun r => by
    rw [val_main_call3_v2_apply]
    unfold val_main_call3_v0
    rw [hz]
    have h1 : val_main_call3_v1 (F := Ideal) (ix1 r) = Ideal.ofBits .f32 0xFF800000#32 := val_main_call3_v1_apply _
    rw [h1]
    refine (congrArg (FloatOps.maximumf (Ideal.ofBits .f32 0xFF800000#32))
      (hostRowMax_ix1 z (val_main_call3_cst (F := Ideal)) reducesTo_S100000x40_S100000_d1 (by decide) h_S_ r)).trans ?_
    show max (Ideal.ofBits .f32 0xFF800000#32) (rowMax z r) = rowMax z r
    exact max_eq_right ((Finset.le_fold_max _).mpr (Or.inl le_rfl))
  funext i
  obtain ⟨r, c, rfl⟩ : ∃ (r : Fin 100000) (c : Fin 40), i = ix2 r c := ⟨i 0, i 1, eq_ix2 i⟩
  -- the shifted entries of row r
  have hshift : ∀ k : Fin 40, val_main_call3_v5 (F := Ideal) x0 x1 x2 x3 x4 x5 (ix2 r k) = z (ix2 r k) - rowMax z r := fun k => by
    rw [val_main_call3_v5_apply, val_main_call3_v4_apply, val_main_call3_v3_apply, hz]
    have e2 : idx_main_call3_v3 (idx_main_call3_v4 (ix2 r k)) = ix1 r := funext fun a => Fin.ext (by match a with | ⟨0, _⟩ => rfl)
    rw [e2, hmax r]
    rfl
  have hsum : (∑ k : Fin 40, val_main_call3_v6 (F := Ideal) x0 x1 x2 x3 x4 x5 (idx_main_call3_v7 (ix1 r) k))
      = ∑ k : Fin 40, Ideal.exp (z (ix2 r k) - rowMax z r) :=
    Finset.sum_congr rfl fun k _ => by
      have e3 : idx_main_call3_v7 (ix1 r) k = ix2 r k := funext fun a => Fin.ext (by match a with | ⟨0, _⟩ => rfl | ⟨1, _⟩ => rfl)
      rw [e3, val_main_call3_v6_apply, hshift k]
      rfl
  rw [val_main_v88_apply, val_main_call3_v10_apply, val_main_call3_v9_apply, val_main_call3_v8_apply, val_main_call3_v7_apply, logSoftmax_ix2]
  have e1 : idx_main_call3_v8 (idx_main_call3_v10 (ix2 r c)) = ix1 r := funext fun a => Fin.ext (by match a with | ⟨0, _⟩ => rfl)
  rw [e1, hsum, hshift c]
  show (z (ix2 r c) - rowMax z r) - Ideal.log (Ideal.ofBits .f32 0x00000000#32 + _) = _
  rw [Ideal.ofBits_zero_f32, zero_add]

/-! ## The aggregations, and the weights computed twice -/

theorem weights_again (x1 : (⟨S2x1600000, .i32⟩ : BufTy).Contents (Elt Ideal)) :
    val_main_v71 (F := Ideal) x1 = val_main_v30 (F := Ideal) x1 := rfl

theorem first_aggregate (x0 : (⟨S100000x256, .f32⟩ : BufTy).Contents (Elt Ideal)) (x1 : (⟨S2x1600000, .i32⟩ : BufTy).Contents (Elt Ideal)) (x2 : (⟨S256x128, .f32⟩ : BufTy).Contents (Elt Ideal)) :
    val_main_v43 (F := Ideal) x0 x1 x2
      = aggregate128 (val_main_v7 (F := Ideal) x0 x2) (val_main_v3 (F := Ideal) x1) (val_main_v6 (F := Ideal) x1) (val_main_v30 (F := Ideal) x1) := rfl

theorem second_aggregate (x0 : (⟨S100000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal)) (x4 : (⟨S128x40, .f32⟩ : BufTy).Contents (Elt Ideal)) :
    val_main_v84 (F := Ideal) x0 x1 x2 x3 x4
      = aggregate40 (val_main_v48 (F := Ideal) x0 x1 x2 x3 x4) (val_main_v3 (F := Ideal) x1) (val_main_v6 (F := Ideal) x1) (val_main_v30 (F := Ideal) x1) := by
  show aggregate40 (val_main_v48 (F := Ideal) x0 x1 x2 x3 x4) (val_main_v3 (F := Ideal) x1) (val_main_v6 (F := Ideal) x1) (val_main_v71 (F := Ideal) x1) = _
  rw [weights_again]

end Cert.ReferenceIdeal.DenseStages

end
-- ==== Proof.WholeValue.lean ====
/-
  The idealized kernel program's result as the reference's last stage function of the arguments. The run's fold
  through the program has ten boundaries; walking them: before the first region the edge sources, targets and weights
  are the reference's stage functions of the edge list and the arguments are untouched; the first region leaves the
  product x W1, which is the reference's first product; the aggregation and the bias row after it are the
  reference's; the second region leaves the positive part of the biased aggregate, the third its product with W2,
  the stretch after it the second aggregate and bias row, and the last region the row-wise log-softmax: the
  reference's result stage. Between boundaries a buffer no operation or region writes keeps its contents.
-/
import proofs.«109758_j36799279792943_1_alg».proof.Proof.Gen.KernelIdeal.Frame
import proofs.«109758_j36799279792943_1_alg».proof.Proof.HostStretches
import proofs.«109758_j36799279792943_1_alg».proof.Proof.FirstProduct
import proofs.«109758_j36799279792943_1_alg».proof.Proof.BiasNonnegPart
import proofs.«109758_j36799279792943_1_alg».proof.Proof.SecondProduct
import proofs.«109758_j36799279792943_1_alg».proof.Proof.BiasLogSoftmax
import proofs.«109758_j36799279792943_1_alg».proof.Proof.DenseStages

set_option maxRecDepth 16384

noncomputable section

namespace Cert.KernelIdeal.WholeValue

open Cert.KernelIdeal Cert.KernelIdeal.Gen Cert.GraphConv
open Cert.ReferenceIdeal.ReadP (val_main_v3 val_main_v6 val_main_v7 val_main_v30 val_main_v43 val_main_v44 val_main_v47 val_main_v48 val_main_v84 val_main_v85 val_main_v88)
open Cert.ReferenceIdeal.Aggregation (aggregate128 aggregate40)
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## At the first region's entry -/

theorem src3 : W3 m ρ c (Proc.devRef .tc main_v3) = val_main_v3 (F := Ideal) (m ((c.tc : Thread nD τ).loc main_arg1)) := HostStretches.sources (W0 m ρ c)
theorem dst3 : W3 m ρ c (Proc.devRef .tc main_v6) = val_main_v6 (F := Ideal) (m ((c.tc : Thread nD τ).loc main_arg1)) := HostStretches.targets (W0 m ρ c)
theorem wgt3 : W3 m ρ c (Proc.devRef .tc main_v29) = val_main_v30 (F := Ideal) (m ((c.tc : Thread nD τ).loc main_arg1)) := HostStretches.weights (W0 m ρ c)
theorem arg0_3 : W3 m ρ c (Proc.devRef .tc main_arg0) = (m ((c.tc : Thread nD τ).loc main_arg0)) := HostStretches.entry0_arg0 (W0 m ρ c)
theorem arg2_3 : W3 m ρ c (Proc.devRef .tc main_arg2) = (m ((c.tc : Thread nD τ).loc main_arg2)) := HostStretches.entry0_arg2 (W0 m ρ c)
theorem arg3_3 : W3 m ρ c (Proc.devRef .tc main_arg3) = (m ((c.tc : Thread nD τ).loc main_arg3)) := HostStretches.entry0_arg3 (W0 m ρ c)
theorem arg4_3 : W3 m ρ c (Proc.devRef .tc main_arg4) = (m ((c.tc : Thread nD τ).loc main_arg4)) := HostStretches.entry0_arg4 (W0 m ρ c)
theorem arg5_3 : W3 m ρ c (Proc.devRef .tc main_arg5) = (m ((c.tc : Thread nD τ).loc main_arg5)) := HostStretches.entry0_arg5 (W0 m ρ c)

/-! ## After the first region: the first product -/

theorem prod4 : W4 m ρ c (Proc.devRef .tc main_v30) = val_main_v7 (F := Ideal) (m ((c.tc : Thread nD τ).loc main_arg0)) (m ((c.tc : Thread nD τ).loc main_arg2)) := by
  refine (W4_arr m ρ c 2).trans ((FirstProduct.result (V3 m ρ) c).trans ?_)
  show matProd (W3 m ρ c (Proc.devRef .tc main_arg0)) (W3 m ρ c (Proc.devRef .tc main_arg2)) = _
  rw [arg0_3, arg2_3]
  exact (Cert.ReferenceIdeal.DenseStages.first_product _ _).symm

theorem src4 : W4 m ρ c (Proc.devRef .tc main_v3) = val_main_v3 (F := Ideal) (m ((c.tc : Thread nD τ).loc main_arg1)) := (W4_of_ne m ρ c main_v3 (by decide)).trans (src3 m ρ c)
theorem dst4 : W4 m ρ c (Proc.devRef .tc main_v6) = val_main_v6 (F := Ideal) (m ((c.tc : Thread nD τ).loc main_arg1)) := (W4_of_ne m ρ c main_v6 (by decide)).trans (dst3 m ρ c)
theorem wgt4 : W4 m ρ c (Proc.devRef .tc main_v29) = val_main_v30 (F := Ideal) (m ((c.tc : Thread nD τ).loc main_arg1)) := (W4_of_ne m ρ c main_v29 (by decide)).trans (wgt3 m ρ c)
theorem arg3_4 : W4 m ρ c (Proc.devRef .tc main_arg3) = (m ((c.tc : Thread nD τ).loc main_arg3)) := (W4_of_ne m ρ c main_arg3 (by decide)).trans (arg3_3 m ρ c)
theorem arg4_4 : W4 m ρ c (Proc.devRef .tc main_arg4) = (m ((c.tc : Thread nD τ).loc main_arg4)) := (W4_of_ne m ρ c main_arg4 (by decide)).trans (arg4_3 m ρ c)
theorem arg5_4 : W4 m ρ c (Proc.devRef .tc main_arg5) = (m ((c.tc : Thread nD τ).loc main_arg5)) := (W4_of_ne m ρ c main_arg5 (by decide)).trans (arg5_3 m ρ c)

/-! ## At the second region's entry: the first aggregate and the bias row -/

theorem agg5 : W5 m ρ c (Proc.devRef .tc main_v43) = val_main_v43 (F := Ideal) (m ((c.tc : Thread nD τ).loc main_arg0)) (m ((c.tc : Thread nD τ).loc main_arg1)) (m ((c.tc : Thread nD τ).loc main_arg2)) := by
  refine (HostStretches.first_aggregate (W4 m ρ c)).trans ?_
  rw [prod4, src4, dst4, wgt4]
  exact (Cert.ReferenceIdeal.DenseStages.first_aggregate _ _ _).symm

theorem bias5 : W5 m ρ c (Proc.devRef .tc main_v44) = val_main_v44 (F := Ideal) (m ((c.tc : Thread nD τ).loc main_arg3)) := by
  refine (HostStretches.first_bias (W4 m ρ c)).trans ?_
  rw [arg3_4]
  exact Cert.ReferenceIdeal.DenseStages.bias_row_128 _ _

theorem src5 : W5 m ρ c (Proc.devRef .tc main_v3) = val_main_v3 (F := Ideal) (m ((c.tc : Thread nD τ).loc main_arg1)) := (HostStretches.stretch1_v3 (W4 m ρ c)).trans (src4 m ρ c)
theorem dst5 : W5 m ρ c (Proc.devRef .tc main_v6) = val_main_v6 (F := Ideal) (m ((c.tc : Thread nD τ).loc main_arg1)) := (HostStretches.stretch1_v6 (W4 m ρ c)).trans (dst4 m ρ c)
theorem wgt5 : W5 m ρ c (Proc.devRef .tc main_v29) = val_main_v30 (F := Ideal) (m ((c.tc : Thread nD τ).loc main_arg1)) := (HostStretches.stretch1_v29 (W4 m ρ c)).trans (wgt4 m ρ c)
theorem arg4_5 : W5 m ρ c (Proc.devRef .tc main_arg4) = (m ((c.tc : Thread nD τ).loc main_arg4)) := (HostStretches.stretch1_arg4 (W4 m ρ c)).trans (arg4_4 m ρ c)
theorem arg5_5 : W5 m ρ c (Proc.devRef .tc main_arg5) = (m ((c.tc : Thread nD τ).loc main_arg5)) := (HostStretches.stretch1_arg5 (W4 m ρ c)).trans (arg5_4 m ρ c)

/-! ## After the second region: the positive part of the biased aggregate -/

theorem hidden6 : W6 m ρ c (Proc.devRef .tc main_v45) = val_main_v47 (F := Ideal) (m ((c.tc : Thread nD τ).loc main_arg0)) (m ((c.tc : Thread nD τ).loc main_arg1)) (m ((c.tc : Thread nD τ).loc main_arg2)) (m ((c.tc : Thread nD τ).loc main_arg3)) := by
  refine (W6_arr m ρ c 2).trans ((BiasNonnegPart.result (V5 m ρ) c).trans ?_)
  show nonnegPart (addRow (W5 m ρ c (Proc.devRef .tc main_v43)) (W5 m ρ c (Proc.devRef .tc main_v44))) = _
  rw [agg5, bias5]
  exact (Cert.ReferenceIdeal.DenseStages.bias_nonneg_part _ _ _ _).symm

theorem src6 : W6 m ρ c (Proc.devRef .tc main_v3) = val_main_v3 (F := Ideal) (m ((c.tc : Thread nD τ).loc main_arg1)) := (W6_of_ne m ρ c main_v3 (by decide)).trans (src5 m ρ c)
theorem dst6 : W6 m ρ c (Proc.devRef .tc main_v6) = val_main_v6 (F := Ideal) (m ((c.tc : Thread nD τ).loc main_arg1)) := (W6_of_ne m ρ c main_v6 (by decide)).trans (dst5 m ρ c)
theorem wgt6 : W6 m ρ c (Proc.devRef .tc main_v29) = val_main_v30 (F := Ideal) (m ((c.tc : Thread nD τ).loc main_arg1)) := (W6_of_ne m ρ c main_v29 (by decide)).trans (wgt5 m ρ c)
theorem arg4_6 : W6 m ρ c (Proc.devRef .tc main_arg4) = (m ((c.tc : Thread nD τ).loc main_arg4)) := (W6_of_ne m ρ c main_arg4 (by decide)).trans (arg4_5 m ρ c)
theorem arg5_6 : W6 m ρ c (Proc.devRef .tc main_arg5) = (m ((c.tc : Thread nD τ).loc main_arg5)) := (W6_of_ne m ρ c main_arg5 (by decide)).trans (arg5_5 m ρ c)

/-! ## After the third region: the second product -/

theorem prod7 : W7 m ρ c (Proc.devRef .tc main_v46) = val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W7_arr m ρ c 2).trans ((SecondProduct.result (V6 m ρ) c).trans ?_)
  show matProd (W6 m ρ c (Proc.devRef .tc main_v45)) (W6 m ρ c (Proc.devRef .tc main_arg4)) = _
  rw [hidden6, arg4_6]
  exact (Cert.ReferenceIdeal.DenseStages.second_product _ _ _ _ _).symm

theorem src7 : W7 m ρ c (Proc.devRef .tc main_v3) = val_main_v3 (F := Ideal) (m ((c.tc : Thread nD τ).loc main_arg1)) := (W7_of_ne m ρ c main_v3 (by decide)).trans (src6 m ρ c)
theorem dst7 : W7 m ρ c (Proc.devRef .tc main_v6) = val_main_v6 (F := Ideal) (m ((c.tc : Thread nD τ).loc main_arg1)) := (W7_of_ne m ρ c main_v6 (by decide)).trans (dst6 m ρ c)
theorem wgt7 : W7 m ρ c (Proc.devRef .tc main_v29) = val_main_v30 (F := Ideal) (m ((c.tc : Thread nD τ).loc main_arg1)) := (W7_of_ne m ρ c main_v29 (by decide)).trans (wgt6 m ρ c)
theorem arg5_7 : W7 m ρ c (Proc.devRef .tc main_arg5) = (m ((c.tc : Thread nD τ).loc main_arg5)) := (W7_of_ne m ρ c main_arg5 (by decide)).trans (arg5_6 m ρ c)

/-! ## At the last region's entry: the second aggregate and the bias row -/

theorem agg8 : W8 m ρ c (Proc.devRef .tc main_v59) = val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (HostStretches.second_aggregate (W7 m ρ c)).trans ?_
  rw [prod7, src7, dst7, wgt7]
  exact (Cert.ReferenceIdeal.DenseStages.second_aggregate _ _ _ _ _).symm

theorem bias8 : W8 m ρ c (Proc.devRef .tc main_v60) = val_main_v85 (F := Ideal) (m ((c.tc : Thread nD τ).loc main_arg5)) := by
  refine (HostStretches.second_bias (W7 m ρ c)).trans ?_
  rw [arg5_7]
  exact Cert.ReferenceIdeal.DenseStages.bias_row_40 _ _

/-! ## After the last region: the result -/

theorem result9 : W9 m ρ c (Proc.devRef .tc main_v61) = val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W9_arr m ρ c 2).trans ((BiasLogSoftmax.result (V8 m ρ) c).trans ?_)
  show logSoftmax (addRow (W8 m ρ c (Proc.devRef .tc main_v59)) (W8 m ρ c (Proc.devRef .tc main_v60))) = _
  rw [agg8, bias8]
  exact (Cert.ReferenceIdeal.DenseStages.log_softmax _ _ _ _ _ _).symm

end Cert.KernelIdeal.WholeValue

end
-- ==== Proof.RefResult.lean ====
/-
  The reference program's result, read. Its @main is a straight line of 131 host operations; every weakly fair execution
  ends with each buffer at the fold of the operations over the launch contents. The result buffer's fold is read in
  two steps. The first seven operations build the edge sources and targets (a row of the edge list joined with the
  node numbers 0 .. 99999, the self loops): each is a two-operand concatenate, read operand by operand. The
  remaining 124 operations are then read over the contents those seven leave, with the two edge lists as atoms: the
  result is the last stage function of the arguments.
-/
import proofs.«109758_j36799279792943_1_alg».proof.Proof.RefRead
import proofs.«109758_j36799279792943_1_alg».proof.Proof.LibHostRun
import Idealize.ShloMosaic.Lib.StableHlo.Run

set_option maxRecDepth 16384

noncomputable section

namespace Cert.ReferenceIdeal.Result

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable (W : Valuation τ sig (Elt Ideal))

/-- The operations that build the edge sources and targets. -/
abbrev edgeOps : List (HloOp τ sig (Elt Ideal)) := (ops (F := Ideal)).take 7
/-- The operations after them. -/
abbrev laterOps : List (HloOp τ sig (Elt Ideal)) := (ops (F := Ideal)).drop 7

theorem after_split : after (ops (F := Ideal)) W = after laterOps (after edgeOps W) := by
  rw [← after_append, List.take_append_drop]

/-- The edge sources: the first row of the edge list, then every node once. -/
theorem sources : after edgeOps W (Proc.devRef .tc main_v3) = val_main_v3 (F := Ideal) (W (Proc.devRef .tc main_arg1)) := by
  simp only [edgeOps, ops, List.take_succ_cons, List.take_zero]
  after_results_simp
  unfold val_main_v3
  refine concat2_congr _ _ _ _ _ _ ?_ ?_
  · after_results_simp <;> rfl
  · after_results_simp <;> rfl

/-- The edge targets: the second row of the edge list, then every node once. -/
theorem targets : after edgeOps W (Proc.devRef .tc main_v6) = val_main_v6 (F := Ideal) (W (Proc.devRef .tc main_arg1)) := by
  simp only [edgeOps, ops, List.take_succ_cons, List.take_zero]
  after_results_simp
  unfold val_main_v6
  refine concat2_congr _ _ _ _ _ _ ?_ ?_
  · after_results_simp <;> rfl
  · after_results_simp <;> rfl

theorem edge_keeps_arg0 : after edgeOps W (Proc.devRef .tc main_arg0) = W (Proc.devRef .tc main_arg0) := by
  simp only [edgeOps, ops, List.take_succ_cons, List.take_zero]
  after_results_simp <;> rfl
theorem edge_keeps_arg2 : after edgeOps W (Proc.devRef .tc main_arg2) = W (Proc.devRef .tc main_arg2) := by
  simp only [edgeOps, ops, List.take_succ_cons, List.take_zero]
  after_results_simp <;> rfl
theorem edge_keeps_arg3 : after edgeOps W (Proc.devRef .tc main_arg3) = W (Proc.devRef .tc main_arg3) := by
  simp only [edgeOps, ops, List.take_succ_cons, List.take_zero]
  after_results_simp <;> rfl
theorem edge_keeps_arg4 : after edgeOps W (Proc.devRef .tc main_arg4) = W (Proc.devRef .tc main_arg4) := by
  simp only [edgeOps, ops, List.take_succ_cons, List.take_zero]
  after_results_simp <;> rfl
theorem edge_keeps_arg5 : after edgeOps W (Proc.devRef .tc main_arg5) = W (Proc.devRef .tc main_arg5) := by
  simp only [edgeOps, ops, List.take_succ_cons, List.take_zero]
  after_results_simp <;> rfl

/-! ## Values that pass through an outlined function

A function the program calls (the select of the inverse square roots, the positive part, the log-softmax) names its
values by typed references; a value enters and leaves such a reference through a transport along the buffer's type,
which is the identity. Inside a call the two transports of one reference cancel; at a call's operands and result the
transport is the identity at that buffer. -/

theorem ofBuf_toBuf {T : BufTy} (x : TRef sig T) (v : T.Contents (Elt Ideal)) : x.ofBuf (x.toBuf v) = v := by
  obtain ⟨r, h, h2, h3⟩ := x; subst h; rfl

theorem enters_main_v13 (h1 h2 h3) (v : (main_v13 : Ref sig .tc).ty.Contents (Elt Ideal)) :
    (TRef.of (sig := sig) (T := ⟨S100000, .i1⟩) main_v13 h1 h2 h3).ofBuf (Val := Elt Ideal) v = v := rfl
theorem enters_main_v14 (h1 h2 h3) (v : (main_v14 : Ref sig .tc).ty.Contents (Elt Ideal)) :
    (TRef.of (sig := sig) (T := ⟨S100000, .f32⟩) main_v14 h1 h2 h3).ofBuf (Val := Elt Ideal) v = v := rfl
theorem enters_main_cst_2 (h1 h2 h3) (v : (main_cst_2 : Ref sig .tc).ty.Contents (Elt Ideal)) :
    (TRef.of (sig := sig) (T := ⟨S_, .f32⟩) main_cst_2 h1 h2 h3).ofBuf (Val := Elt Ideal) v = v := rfl
theorem leaves_main_v15 (h1 h2 h3) (v : (⟨S100000, .f32⟩ : BufTy).Contents (Elt Ideal)) :
    (TRef.of (sig := sig) (T := ⟨S100000, .f32⟩) main_v15 h1 h2 h3).toBuf (Val := Elt Ideal) v = v := rfl
theorem enters_main_v54 (h1 h2 h3) (v : (main_v54 : Ref sig .tc).ty.Contents (Elt Ideal)) :
    (TRef.of (sig := sig) (T := ⟨S100000, .i1⟩) main_v54 h1 h2 h3).ofBuf (Val := Elt Ideal) v = v := rfl
theorem enters_main_v55 (h1 h2 h3) (v : (main_v55 : Ref sig .tc).ty.Contents (Elt Ideal)) :
    (TRef.of (sig := sig) (T := ⟨S100000, .f32⟩) main_v55 h1 h2 h3).ofBuf (Val := Elt Ideal) v = v := rfl
theorem enters_main_cst_12 (h1 h2 h3) (v : (main_cst_12 : Ref sig .tc).ty.Contents (Elt Ideal)) :
    (TRef.of (sig := sig) (T := ⟨S_, .f32⟩) main_cst_12 h1 h2 h3).ofBuf (Val := Elt Ideal) v = v := rfl
theorem leaves_main_v56 (h1 h2 h3) (v : (⟨S100000, .f32⟩ : BufTy).Contents (Elt Ideal)) :
    (TRef.of (sig := sig) (T := ⟨S100000, .f32⟩) main_v56 h1 h2 h3).toBuf (Val := Elt Ideal) v = v := rfl
theorem enters_main_v46 (h1 h2 h3) (v : (main_v46 : Ref sig .tc).ty.Contents (Elt Ideal)) :
    (TRef.of (sig := sig) (T := ⟨S100000x128, .f32⟩) main_v46 h1 h2 h3).ofBuf (Val := Elt Ideal) v = v := rfl
theorem leaves_main_v47 (h1 h2 h3) (v : (⟨S100000x128, .f32⟩ : BufTy).Contents (Elt Ideal)) :
    (TRef.of (sig := sig) (T := ⟨S100000x128, .f32⟩) main_v47 h1 h2 h3).toBuf (Val := Elt Ideal) v = v := rfl
theorem enters_main_v87 (h1 h2 h3) (v : (main_v87 : Ref sig .tc).ty.Contents (Elt Ideal)) :
    (TRef.of (sig := sig) (T := ⟨S100000x40, .f32⟩) main_v87 h1 h2 h3).ofBuf (Val := Elt Ideal) v = v := rfl
theorem leaves_main_v88 (h1 h2 h3) (v : (⟨S100000x40, .f32⟩ : BufTy).Contents (Elt Ideal)) :
    (TRef.of (sig := sig) (T := ⟨S100000x40, .f32⟩) main_v88 h1 h2 h3).toBuf (Val := Elt Ideal) v = v := rfl

set_option maxRecDepth 1000000 in
set_option maxHeartbeats 60000000 in
/-- The result buffer after the whole line: the last stage function of the six arguments. -/
theorem result_read : after (ops (F := Ideal)) W (Proc.devRef .tc main_v88)
    = val_main_v88 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  rw [after_split]
  have h3 := sources W
  have h6 := targets W
  have a0 := edge_keeps_arg0 W
  have a2 := edge_keeps_arg2 W
  have a3 := edge_keeps_arg3 W
  have a4 := edge_keeps_arg4 W
  have a5 := edge_keeps_arg5 W
  generalize after edgeOps W = W' at h3 h6 a0 a2 a3 a4 a5 ⊢
  simp only [laterOps, ops, List.drop_succ_cons, List.drop_zero]
  after_results_simp
  simp only [ofBuf_toBuf, enters_main_v13, enters_main_v14, enters_main_cst_2, leaves_main_v15, enters_main_v54, enters_main_v55, enters_main_cst_12, leaves_main_v56, enters_main_v46, leaves_main_v47, enters_main_v87, leaves_main_v88]
  rw [h3, h6, a0, a2, a3, a4, a5]
  rfl

variable (m : (ℓ : Loc nD τ sig) → Buf (Elt Ideal) ℓ) (ρ : Dev nD → PrngReg)

set_option maxHeartbeats 60000000 in
/-- The run: the result at the last stage function of the launch contents of the arguments, the arguments unchanged. -/
theorem run : θ_run defs (onTc (τ := τ) (main (F := Ideal))) ⟨m, fun _ => 0, ρ⟩ fun r => ∀ c : Dev nD,
      r.2.mem ((c.tc : Thread nD τ).loc main_v88) = val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v88).trans (result_read (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.Result

end
-- ==== Proof.lean ====
/-
  A two-layer graph convolution with a log-softmax head, on 100000 nodes and 1600000 edges plus one self loop per
  node: out = logsoftmax (A (relu (A (x W1) + b1) W2) + b2), where A gathers a row per edge source, scales it by the
  edge's weight (the product of the inverse square roots of the target-degrees at its two ends) and adds it into the
  row of the edge's target. The kernel program computes the four dense stages — the two matrix products, bias with
  positive part, bias with row-wise log-softmax — in kernel regions of 50 row blocks of 2000 rows each, and the
  aggregation A between them on the host; the reference computes everything on the host. Over the extended reals the
  two results are one function of the arguments:
    * each region's 50 blocks are the row blocks of one whole-array function (a product of matrices; the positive
      part of a row-added bias; the shifted row-wise log-softmax), and the reference's corresponding host operations
      are the same function, index by index — a product is the same finite sum however its rows are tiled and
      whatever formats its operands were rounded to, a row maximum taken once more against minus infinity is
      unchanged, a sum started from the zero word is the sum;
    * the aggregation, the edge lists and the edge weights are the same host text in both programs and are never
      opened (the reference computes the weights once per layer, the kernel program once: the same term).
  No law that needs finiteness is used, so the precondition is never opened. The kernel program's idealization rewrote
  nothing, so it preserves the kernel program trivially. The three frames are the generated frame runs (for the
  reference: its run with the result dropped).
-/
import proofs.«109758_j36799279792943_1_alg».proof.Defs
import proofs.«109758_j36799279792943_1_alg».proof.Proof.Gen.Kernel
import proofs.«109758_j36799279792943_1_alg».proof.Proof.Gen.Kernel.Skeleton
import proofs.«109758_j36799279792943_1_alg».proof.Proof.Gen.Kernel.Launch
import proofs.«109758_j36799279792943_1_alg».proof.Proof.Gen.Kernel.Points
import proofs.«109758_j36799279792943_1_alg».proof.Proof.Gen.Kernel.Frame
import proofs.«109758_j36799279792943_1_alg».proof.Proof.Gen.KernelIdeal
import proofs.«109758_j36799279792943_1_alg».proof.Proof.Gen.KernelIdeal.Skeleton
import proofs.«109758_j36799279792943_1_alg».proof.Proof.Gen.KernelIdeal.Launch
import proofs.«109758_j36799279792943_1_alg».proof.Proof.Gen.KernelIdeal.Points
import proofs.«109758_j36799279792943_1_alg».proof.Proof.Gen.KernelIdeal.Frame
import proofs.«109758_j36799279792943_1_alg».proof.Proof.Gen.ReferenceIdeal
import proofs.«109758_j36799279792943_1_alg».proof.Proof.Gen.Pre_finite_inputs
import proofs.«109758_j36799279792943_1_alg».proof.Proof.ResultRun
import proofs.«109758_j36799279792943_1_alg».proof.Proof.WholeValue
import proofs.«109758_j36799279792943_1_alg».proof.Proof.RefResult
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Result.run m ρ)

/-- The idealization rewrote no operation. -/
theorem preserves : Cert.preserves_Kernel_KernelIdeal := trivial

/-- Both programs, from memories agreeing on the arguments, end with the result array at the reference's last stage
    function of the arguments: the kernel program by the walk through its regions and host stretches, the reference by
    its run. -/
theorem algebraic : Cert.algebraic_KernelIdeal_ReferenceIdeal := by
  intro m ρ m' ρ' _ hagree
  refine ⟨fun c => Cert.ReferenceIdeal.ReadP.val_main_v88 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.WholeValue.result9 m ρ c), (h c).2⟩)
      (Cert.KernelIdeal.ResultRun.run (F := Ideal) m ρ)
  · refine (θ_run Cert.ReferenceIdeal.defs _ _).mono (fun _ h c => ⟨(h c).1.trans ?_, (h c).2⟩)
      (Cert.ReferenceIdeal.Result.run m' ρ')
    obtain ⟨e0, e1, e2, e3, e4, e5⟩ := hagree c
    rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
